-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S256x256 : Shape := ⟨2, ![256, 256]⟩
abbrev S256x64 : Shape := ⟨2, ![256, 64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S8192x8192 .f32) (main_arg1 : FVec F S8192x256 .f32) (main_arg2 : FVec F S256x256 .f32) (main_arg3 : FVec F S256x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S8192x8192 : Shape := ⟨2, ![8192, 8192]⟩
abbrev S8192x256 : Shape := ⟨2, ![8192, 256]⟩
abbrev S256x256 : Shape := ⟨2, ![256, 256]⟩
abbrev S256x64 : Shape := ⟨2, ![256, 64]⟩
abbrev S2048x1024 : Shape := ⟨2, ![2048, 1024]⟩
abbrev S2048x256 : Shape := ⟨2, ![2048, 256]⟩
abbrev S1024x256 : Shape := ⟨2, ![1024, 256]⟩
abbrev S8192x64 : Shape := ⟨2, ![8192, 64]⟩
abbrev S2048x64 : Shape := ⟨2, ![2048, 64]⟩
abbrev S1024x64 : Shape := ⟨2, ![1024, 64]⟩
abbrev S2048 : Shape := ⟨1, ![2048]⟩
abbrev S2048x1 : Shape := ⟨2, ![2048, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x256, .f32⟩
  | .hbm, ⟨3, _⟩ => ⟨S256x64, .f32⟩
  | .hbm, ⟨4, _⟩ => ⟨S8192x256, .f32⟩
  | .hbm, ⟨5, _⟩ => ⟨S8192x256, .f32⟩
  | .hbm, ⟨6, _⟩ => ⟨S8192x64, .f32⟩
  | .hbm, ⟨7, _⟩ => ⟨S8192x64, .f32⟩
  | .local _ .vmem, ⟨0, _⟩ => ⟨S2048x1024, .f32⟩
  | .local _ .vmem, ⟨1, _⟩ => ⟨S2048x1024, .f32⟩
  | .local _ .vmem, ⟨2, _⟩ => ⟨S8192x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x1024, .f32⟩
  | .local _ .vmem, ⟨7, _⟩ => ⟨S2048x1024, .f32⟩
  | .local _ .vmem, ⟨8, _⟩ => ⟨S8192x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  h_S1024x256 : 0 < S1024x256.numel
  shapeCasts_S1024x256_S1024x256 : S1024x256.ShapeCasts S1024x256
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S1024x64 : 0 < S1024x64.numel
  shapeCasts_S1024x64_S1024x64 : S1024x64.ShapeCasts S1024x64
  reduces_S2048x64_S2048 : S2048x64.Reduces [1] S2048
  shapeCasts_S2048_S2048x1 : S2048.ShapeCasts S2048x1
  broadcasts_S2048x1_S2048x64 : S2048x1.Broadcasts S2048x64
  dot_S8192x256_S256x256_S8192x256_1_0_0_1_n_n_wf : DotDims.WF S8192x256 S256x256 S8192x256 [1] [0] [0] [1] [] []
  dot_S2048x1024_S1024x256_S2048x256_1_0_0_1_n_n_wf : DotDims.WF S2048x1024 S1024x256 S2048x256 [1] [0] [0] [1] [] []
  dot_S8192x256_S256x64_S8192x64_1_0_0_1_n_n_wf : DotDims.WF S8192x256 S256x64 S8192x64 [1] [0] [0] [1] [] []
  dot_S2048x1024_S1024x64_S2048x64_1_0_0_1_n_n_wf : DotDims.WF S2048x1024 S1024x64 S2048x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S256x256 : Shape := ⟨2, ![256, 256]⟩
abbrev S256x64 : Shape := ⟨2, ![256, 64]⟩
abbrev S_ : Shape := ⟨0, ![]⟩
abbrev S8192x64 : Shape := ⟨2, ![8192, 64]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S256x256, .f32⟩
  | .hbm, ⟨3, _⟩ => ⟨S256x64, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x64, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S8192x64, .f32⟩
  | .hbm, ⟨25, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_call1_cst_0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_v6 : Ref sig .tc := ⟨.hbm, 19, rfl⟩
abbrev main_call1_cst_1 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_v5 : Ref sig .tc := ⟨.hbm, 25, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x64_S8192x64_1_0_0_1_n_n_wf : DotDims.WF S8192x256 S256x64 S8192x64 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

class Facts : Prop extends Facts₀ where

variable [Facts]
-- ==== Proof.K.Kit0.lean ====
/-
  Region 0 of the program (the first graph-convolution layer's kernel) on its 4 × 8 grid, stated at a PARAMETER `V`: the
  contents of the core's buffers when the region is entered.  A grid point t has coordinates (t / 8, t % 8): the row
  tile and the column block of the adjacency matrix.  The body zeroes its accumulator where t % 8 = 0, adds one block
  product at every point, and stores the activation of the accumulator into the output block where t % 8 = 7; so a
  point is in exactly one of three cases (first / middle / last column block), and the output window is idle — not
  stored, not written back — except in the last.
-/
import proofs.«170206_j10720238371545_2_alg».proof.Proof.Gen.Kernel.Launch
import proofs.«170206_j10720238371545_2_alg».proof.Proof.Gen.Kernel.Skeleton
import proofs.«170206_j10720238371545_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The resident right operand's staging buffer holds the whole operand at every point (fetched once, never moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first column block" (the accumulator is zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (the activation is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column block the output block is neither stored nor written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column block it is stored. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0 : View sig .tc .vmem S2048x256 .f32 := (Memref.whole cc0_stg2_0 : Memref sig .tc .vmem S2048x256 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x256 .f32 := Memref.whole cc0_scratch0
abbrev VS0 : View sig .tc .vmem S2048x256 .f32 := scM0.view

/-- The scoped buffers of the OTHER region (its staging buffers and its accumulator), each whole at some contents:
    they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant hands out the accumulator (a memref owned at some contents), the other region's scoped
    buffers and the generator register, -/
theorem PhiA0_to (c : Dev nD) :
    (Pipeline.ΦA spec0 c : sProp 𝕄)
      ⊢ iprop(iprop((∃ d, owns (c : Thread nD τ) scM0 fullShare d) ∗ others0 c) ∗ (∃ r, prngReg c r)) := by
  unfold Pipeline.ΦA others0; rw [scopedRest0_eq]; simp only [scM0, owns_whole]
  iintro ⟨⟨HS, O1, O2, O3, O4, O5, O6⟩, Hg⟩
  isplitr [Hg]
  · isplitl [HS]; · iexact HS
    isplitl [O1]; · iexact O1
    isplitl [O2]; · iexact O2
    isplitl [O3]; · iexact O3
    isplitl [O4]; · iexact O4
    isplitl [O5]; · iexact O5
    iexact O6
  iexact Hg

/-- and is made of them again. -/
theorem PhiA0_of (c : Dev nD) :
    (iprop(iprop((∃ d, owns (c : Thread nD τ) scM0 fullShare d) ∗ others0 c) ∗ (∃ r, prngReg c r)) : sProp 𝕄)
      ⊢ Pipeline.ΦA spec0 c := by
  unfold Pipeline.ΦA others0; rw [scopedRest0_eq]; simp only [scM0, owns_whole]
  iintro ⟨⟨HS, O1, O2, O3, O4, O5, O6⟩, Hg⟩
  isplitr [Hg]
  · isplitl [HS]; · iexact HS
    isplitl [O1]; · iexact O1
    isplitl [O2]; · iexact O2
    isplitl [O3]; · iexact O3
    isplitl [O4]; · iexact O4
    isplitl [O5]; · iexact O5
    iexact O6
  iexact Hg

/-- The same from the accumulator at named contents: they are forgotten. -/
theorem PhiA0_of_named (c : Dev nD) (x : Vec F S2048x256 .f32) :
    (iprop(iprop(owns (c : Thread nD τ) scM0 fullShare x ∗ others0 c) ∗ (∃ r, prngReg c r)) : sProp 𝕄)
      ⊢ Pipeline.ΦA spec0 c :=
  (show (iprop(iprop(owns (c : Thread nD τ) scM0 fullShare x ∗ others0 c) ∗ (∃ r, prngReg c r)) : sProp 𝕄)
      ⊢ iprop(iprop((∃ d, owns (c : Thread nD τ) scM0 fullShare d) ∗ others0 c) ∗ (∃ r, prngReg c r)) from by
    iintro ⟨⟨HS, Hoth⟩, Hg⟩
    isplitl [HS Hoth]
    · isplitl [HS]
      · iexists _; iexact HS
      iexact Hoth
    iexact Hg).trans (PhiA0_of c)

end Cert.Kernel.Fr

end
-- ==== Proof.K.Run0A.lean ====
/-
  The body of region 0 at the first column block (the accumulator is zeroed, then one block product added; the output block untouched): its run on whole
  staging memrefs, found by symbolic execution of the body's skeleton; the pieces the accumulator ends with are the
  witness the run finds.
-/
import proofs.«170206_j10720238371545_2_alg».proof.Proof.K.Kit0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at anything: the body runs, and leaves the accumulator with the pieces `LS` written. -/
noncomputable def kernelRun0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : ¬cond0_1 i)
    (x0 : Vec F S2048x1024 .f32) (x1 : Vec F S8192x256 .f32) :
    { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gcn_layer_kernel i arg2 harg2 arg3 harg3 arg4 harg4 arg5 harg5) K } := by
  refine ⟨?_, fun xi E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.Run0B.lean ====
/-
  The body of region 0 at a middle column block (one block product added to the accumulator; the output block untouched): its run on whole
  staging memrefs, found by symbolic execution of the body's skeleton; the pieces the accumulator ends with are the
  witness the run finds.
-/
import proofs.«170206_j10720238371545_2_alg».proof.Proof.K.Kit0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at `xs`: the body runs, and leaves the accumulator with the pieces `LS` written. -/
noncomputable def kernelRun0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : ¬cond0_1 i)
    (x0 : Vec F S2048x1024 .f32) (x1 : Vec F S8192x256 .f32) (xs : Vec F S2048x256 .f32) :
    { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gcn_layer_kernel i arg2 harg2 arg3 harg3 arg4 harg4 arg5 harg5) K } := by
  refine ⟨?_, fun xi E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.Run0C.lean ====
/-
  The body of region 0 at the last column block (one block product added, then the activation of the accumulator stored into the output block): its run on whole
  staging memrefs, found by symbolic execution of the body's skeleton; the pieces the output's buffer and the
  accumulator end with are the witnesses the run finds.
-/
import proofs.«170206_j10720238371545_2_alg».proof.Proof.K.Kit0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at anything, the accumulator at `xs`:
    the body runs, and leaves the output's buffer with the pieces `LO` and the accumulator with the pieces `LS` written. -/
noncomputable def kernelRun0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__gcn_layer_kernel i arg2 harg2 arg3 harg3 arg4 harg4 arg5 harg5) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Fr

end
-- ==== Proof.K.Frame0.lean ====
/-
  Region 0, the rest of its frame: what each case leaves in the accumulator and in the output's buffer, the same
  point by point over the grid (the accumulation), the region's invariant — the accumulator at what the point before
  left, the other region's scoped buffers and the generator register at anything —, the proof data at the entry contents
  `V`, and the body obligation at every point.
-/
import proofs.«170206_j10720238371545_2_alg».proof.Proof.K.Run0A
import proofs.«170206_j10720238371545_2_alg».proof.Proof.K.Run0B
import proofs.«170206_j10720238371545_2_alg».proof.Proof.K.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First column block: the one store of the accumulator covers it. -/
theorem scover0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : ¬cond0_1 i)
    (x0 : Vec F S2048x1024 .f32) (x1 : Vec F S8192x256 .f32) (y : S2048x256.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x256.size (by sl_kernel_rfl) y
/-- What it leaves in the accumulator: its pieces read back. -/
def sout0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : ¬cond0_1 i)
    (x0 : Vec F S2048x1024 .f32) (x1 : Vec F S8192x256 .f32) : Vec F S2048x256 .f32 :=
  VS0.read (Elt F) (VS0.writes (Elt F) VS0.junk (kernelRun0_A c i arg2 harg2 arg3 harg3 arg4 harg4 arg5 harg5 hc0 hc1 x0 x1).1)

/-- A middle column block. -/
theorem scover0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : ¬cond0_1 i)
    (x0 : Vec F S2048x1024 .f32) (x1 : Vec F S8192x256 .f32) (xs : Vec F S2048x256 .f32) (y : S2048x256.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S2048x256.size (by sl_kernel_rfl) y
def sout0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : ¬cond0_1 i)
    (x0 : Vec F S2048x1024 .f32) (x1 : Vec F S8192x256 .f32) (xs : Vec F S2048x256 .f32) : Vec F S2048x256 .f32 :=
  VS0.read (Elt F) (VS0.writes (Elt F) VS0.junk (kernelRun0_B c i arg2 harg2 arg3 harg3 arg4 harg4 arg5 harg5 hc0 hc1 x0 x1 xs).1)

/-- The last column block: the accumulator's store covers it, and so does the output's. -/
theorem scover0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) (y : S2048x256.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S2048x256.size (by sl_kernel_rfl) y
def sout0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) : Vec F S2048x256 .f32 :=
  VS0.read (Elt F) (VS0.writes (Elt F) VS0.junk (kernelRun0_C c i arg2 harg2 arg3 harg3 arg4 harg4 arg5 harg5 hc0 hc1 x0 x1 xs).2.1)
theorem cover0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) (y : S2048x256.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S2048x256.size (by sl_kernel_rfl) y
/-- What it leaves in the output's buffer. -/
def out0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) : Vec F S2048x256 .f32 :=
  VO0.read (Elt F) (VO0.writes (Elt F) VO0.junk (kernelRun0_C c i arg2 harg2 arg3 harg3 arg4 harg4 arg5 harg5 hc0 hc1 x0 x1 xs).1)

/-! ## The accumulation, point by point -/

/-- After the body at position `n`: (the output's buffer, the accumulator).  The output component is a placeholder
    away from the last column block (there the window is idle: nothing consults it). -/
def outsAt0 (c : Dev nD) : (n : ℕ) → n < cfg0.N → Vec F S2048x256 .f32 × Vec F S2048x256 .f32
  | 0, hn => ((VO0.read (Elt F) VO0.junk), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => absurd ((hcond0_1 ⟨0, hn⟩).mp h) (by show ¬ 0 % 8 = 7; decide)) (iblk0 V c 0 ⟨0, hn⟩) (iblk0 V c 1 ⟨0, hn⟩))
  | n + 1, hn =>
    if h0 : (n + 1) % 8 = 0 then
      ((VO0.read (Elt F) VO0.junk), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => absurd ((hcond0_1 ⟨n + 1, hn⟩).mp h) (by (try dsimp only); omega)) (iblk0 V c 0 ⟨n + 1, hn⟩) (iblk0 V c 1 ⟨n + 1, hn⟩))
    else if h1 : (n + 1) % 8 = 7 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      ((VO0.read (Elt F) VO0.junk), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = ((VO0.read (Elt F) VO0.junk), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = ((VO0.read (Elt F) VO0.junk), sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class's invariant (every scoped buffer at anything); afterwards the
    accumulator at what the point before left, the other region's scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block, the output's and the
    accumulator at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point.  The inputs' buffers hold their blocks; the point's position among the column blocks says
    which case runs; the invariant hands the body the accumulator at what the point before left (at anything where the
    accumulator is zeroed first) and takes it back at this point's contents; the other region's buffers and the
    generator register pass through; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz]
      refine (sep_mono (PhiA0_to c) .rfl).trans ?_
      iintro ⟨⟨⟨HS, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class invariant is the region's invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht]
  exact PhiA0_of_named c _

end Cert.Kernel.Fr

end
-- ==== Proof.K.Kit1.lean ====
/-
  Region 1 of the program (the second graph-convolution layer's kernel) on its 4 × 8 grid, stated at a PARAMETER `V`: the
  contents of the core's buffers when the region is entered.  A grid point t has coordinates (t / 8, t % 8): the row
  tile and the column block of the adjacency matrix.  The body zeroes its accumulator where t % 8 = 0, adds one block
  product at every point, and stores the activation of the accumulator into the output block where t % 8 = 7; so a
  point is in exactly one of three cases (first / middle / last column block), and the output window is idle — not
  stored, not written back — except in the last.
-/
import proofs.«170206_j10720238371545_2_alg».proof.Proof.Gen.Kernel.Launch
import proofs.«170206_j10720238371545_2_alg».proof.Proof.Gen.Kernel.Skeleton
import proofs.«170206_j10720238371545_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident right operand's staging buffer holds the whole operand at every point (fetched once, never moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the first column block" (the accumulator is zeroed). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block" (the activation is stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last column block the output block is neither stored nor written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last column block it is stored. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1 : View sig .tc .vmem S2048x64 .f32 := (Memref.whole cc1_stg2_0 : Memref sig .tc .vmem S2048x64 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x64 .f32 := Memref.whole cc1_scratch0
abbrev VS1 : View sig .tc .vmem S2048x64 .f32 := scM1.view

/-- The scoped buffers of the OTHER region (its staging buffers and its accumulator), each whole at some contents:
    they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant hands out the accumulator (a memref owned at some contents), the other region's scoped
    buffers and the generator register, -/
theorem PhiA1_to (c : Dev nD) :
    (Pipeline.ΦA spec1 c : sProp 𝕄)
      ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨O1, O2, O3, O4, O5, O6, HS⟩, Hg⟩
  isplitr [Hg]
  · isplitl [HS]; · iexact HS
    isplitl [O1]; · iexact O1
    isplitl [O2]; · iexact O2
    isplitl [O3]; · iexact O3
    isplitl [O4]; · iexact O4
    isplitl [O5]; · iexact O5
    iexact O6
  iexact Hg

/-- and is made of them again. -/
theorem PhiA1_of (c : Dev nD) :
    (iprop(iprop((∃ d, owns (c : Thread nD τ) scM1 fullShare d) ∗ others1 c) ∗ (∃ r, prngReg c r)) : sProp 𝕄)
      ⊢ Pipeline.ΦA spec1 c := by
  unfold Pipeline.ΦA others1; rw [scopedRest1_eq]; simp only [scM1, owns_whole]
  iintro ⟨⟨HS, O1, O2, O3, O4, O5, O6⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    iexact HS
  iexact Hg

/-- The same from the accumulator at named contents: they are forgotten. -/
theorem PhiA1_of_named (c : Dev nD) (x : Vec F S2048x64 .f32) :
    (iprop(iprop(owns (c : Thread nD τ) scM1 fullShare x ∗ others1 c) ∗ (∃ r, prngReg c r)) : sProp 𝕄)
      ⊢ Pipeline.ΦA spec1 c :=
  (show (iprop(iprop(owns (c : Thread nD τ) scM1 fullShare x ∗ others1 c) ∗ (∃ r, prngReg c r)) : sProp 𝕄)
      ⊢ iprop(iprop((∃ d, owns (c : Thread nD τ) scM1 fullShare d) ∗ others1 c) ∗ (∃ r, prngReg c r)) from by
    iintro ⟨⟨HS, Hoth⟩, Hg⟩
    isplitl [HS Hoth]
    · isplitl [HS]
      · iexists _; iexact HS
      iexact Hoth
    iexact Hg).trans (PhiA1_of c)

end Cert.Kernel.Fr

end
-- ==== Proof.K.Run1A.lean ====
/-
  The body of region 1 at the first column block (the accumulator is zeroed, then one block product added; the output block untouched): its run on whole
  staging memrefs, found by symbolic execution of the body's skeleton; the pieces the accumulator ends with are the
  witness the run finds.
-/
import proofs.«170206_j10720238371545_2_alg».proof.Proof.K.Kit1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at anything: the body runs, and leaves the accumulator with the pieces `LS` written. -/
noncomputable def kernelRun1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x1024 .f32) (x1 : Vec F S8192x64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__gcn_layer_kernel i arg2 harg2 arg3 harg3 arg4 harg4 arg5 harg5) K } := by
  refine ⟨?_, fun xi E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.Run1B.lean ====
/-
  The body of region 1 at a middle column block (one block product added to the accumulator; the output block untouched): its run on whole
  staging memrefs, found by symbolic execution of the body's skeleton; the pieces the accumulator ends with are the
  witness the run finds.
-/
import proofs.«170206_j10720238371545_2_alg».proof.Proof.K.Kit1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at `xs`: the body runs, and leaves the accumulator with the pieces `LS` written. -/
noncomputable def kernelRun1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x1024 .f32) (x1 : Vec F S8192x64 .f32) (xs : Vec F S2048x64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__gcn_layer_kernel i arg2 harg2 arg3 harg3 arg4 harg4 arg5 harg5) K } := by
  refine ⟨?_, fun xi E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.Run1C.lean ====
/-
  The body of region 1 at the last column block (one block product added, then the activation of the accumulator stored into the output block): its run on whole
  staging memrefs, found by symbolic execution of the body's skeleton; the pieces the output's buffer and the
  accumulator end with are the witnesses the run finds.
-/
import proofs.«170206_j10720238371545_2_alg».proof.Proof.K.Kit1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at anything, the accumulator at `xs`:
    the body runs, and leaves the output's buffer with the pieces `LO` and the accumulator with the pieces `LS` written. -/
noncomputable def kernelRun1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__gcn_layer_kernel i arg2 harg2 arg3 harg3 arg4 harg4 arg5 harg5) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Fr

end
-- ==== Proof.K.Frame1.lean ====
/-
  Region 1, the rest of its frame: what each case leaves in the accumulator and in the output's buffer, the same
  point by point over the grid (the accumulation), the region's invariant — the accumulator at what the point before
  left, the other region's scoped buffers and the generator register at anything —, the proof data at the entry contents
  `V`, and the body obligation at every point.
-/
import proofs.«170206_j10720238371545_2_alg».proof.Proof.K.Run1A
import proofs.«170206_j10720238371545_2_alg».proof.Proof.K.Run1B
import proofs.«170206_j10720238371545_2_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First column block: the one store of the accumulator covers it. -/
theorem scover1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x1024 .f32) (x1 : Vec F S8192x64 .f32) (y : S2048x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2048x64.size (by sl_kernel_rfl) y
/-- What it leaves in the accumulator: its pieces read back. -/
def sout1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x1024 .f32) (x1 : Vec F S8192x64 .f32) : Vec F S2048x64 .f32 :=
  VS1.read (Elt F) (VS1.writes (Elt F) VS1.junk (kernelRun1_A c i arg2 harg2 arg3 harg3 arg4 harg4 arg5 harg5 hc0 hc1 x0 x1).1)

/-- A middle column block. -/
theorem scover1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x1024 .f32) (x1 : Vec F S8192x64 .f32) (xs : Vec F S2048x64 .f32) (y : S2048x64.Idx) :
    ∃ pc ∈ (kernelRun1_B c i arg2 harg2 arg3 harg3 arg4 harg4 arg5 harg5 hc0 hc1 x0 x1 xs).1, y ∈ pc.1.set :=
  View.cover_of_tiledL (kernelRun1_B c i arg2 harg2 arg3 harg3 arg4 harg4 arg5 harg5 hc0 hc1 x0 x1 xs).1 S2048x64.size (by sl_kernel_rfl) y
def sout1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x1024 .f32) (x1 : Vec F S8192x64 .f32) (xs : Vec F S2048x64 .f32) : Vec F S2048x64 .f32 :=
  VS1.read (Elt F) (VS1.writes (Elt F) VS1.junk (kernelRun1_B c i arg2 harg2 arg3 harg3 arg4 harg4 arg5 harg5 hc0 hc1 x0 x1 xs).1)

/-- The last column block: the accumulator's store covers it, and so does the output's. -/
theorem scover1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) (y : S2048x64.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x64.size (by sl_kernel_rfl) y
def sout1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) : Vec F S2048x64 .f32 :=
  VS1.read (Elt F) (VS1.writes (Elt F) VS1.junk (kernelRun1_C c i arg2 harg2 arg3 harg3 arg4 harg4 arg5 harg5 hc0 hc1 x0 x1 xs).2.1)
theorem cover1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) (y : S2048x64.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x64.size (by sl_kernel_rfl) y
/-- What it leaves in the output's buffer. -/
def out1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) : Vec F S2048x64 .f32 :=
  VO1.read (Elt F) (VO1.writes (Elt F) VO1.junk (kernelRun1_C c i arg2 harg2 arg3 harg3 arg4 harg4 arg5 harg5 hc0 hc1 x0 x1 xs).1)

/-! ## The accumulation, point by point -/

/-- After the body at position `n`: (the output's buffer, the accumulator).  The output component is a placeholder
    away from the last column block (there the window is idle: nothing consults it). -/
def outsAt1 (c : Dev nD) : (n : ℕ) → n < cfg1.N → Vec F S2048x64 .f32 × Vec F S2048x64 .f32
  | 0, hn => ((VO1.read (Elt F) VO1.junk), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => absurd ((hcond1_1 ⟨0, hn⟩).mp h) (by show ¬ 0 % 8 = 7; decide)) (iblk1 V c 0 ⟨0, hn⟩) (iblk1 V c 1 ⟨0, hn⟩))
  | n + 1, hn =>
    if h0 : (n + 1) % 8 = 0 then
      ((VO1.read (Elt F) VO1.junk), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => absurd ((hcond1_1 ⟨n + 1, hn⟩).mp h) (by (try dsimp only); omega)) (iblk1 V c 0 ⟨n + 1, hn⟩) (iblk1 V c 1 ⟨n + 1, hn⟩))
    else if h1 : (n + 1) % 8 = 7 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      ((VO1.read (Elt F) VO1.junk), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = ((VO1.read (Elt F) VO1.junk), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = ((VO1.read (Elt F) VO1.junk), sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class's invariant (every scoped buffer at anything); afterwards the
    accumulator at what the point before left, the other region's scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' buffers hold their blocks; the point's position among the column blocks says
    which case runs; the invariant hands the body the accumulator at what the point before left (at anything where the
    accumulator is zeroed first) and takes it back at this point's contents; the other region's buffers and the
    generator register pass through; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      refine (sep_mono (PhiA1_to c) .rfl).trans ?_
      iintro ⟨⟨⟨HS, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The class invariant is the region's invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht]
  exact PhiA1_of_named c _

end Cert.Kernel.Fr

end
-- ==== Proof.K.FrameAll.lean ====
/-
  The whole program as four segments — the host product x·W₁, the first layer's kernel, the host product h·W₂, the
  second layer's kernel — with the contents of the core's buffers named at every boundary: a host stretch applies its
  operations; a region leaves each of its arrays at what its write-backs leave (the inputs as entered, the output at the
  fold of its blocks) and every other buffer as entered.  The run ends with every unscoped buffer at the last
  boundary's contents; the four arguments are read back through the fold to their launch contents.
-/
import proofs.«170206_j10720238371545_2_alg».proof.Proof.K.Frame0
import proofs.«170206_j10720238371545_2_alg».proof.Proof.K.Frame1
import proofs.«170206_j10720238371545_2_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wb0 : Dev nD → Valuation τ sig (Elt F) := fun c b => (s₀ m ρ).mem ((c : Dev nD), b)
/-- After x·W₁ (the first region's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the first region's exit. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After h·W₂ (the second region's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At the second region's exit. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-! ## The arguments end as launched -/

/-- The adjacency matrix is an input window of both regions and no host stretch writes it. -/
theorem Wb4_main_arg0 (c : Dev nD) : Wb4 m ρ c (Proc.devRef .tc main_arg0) = m ((c : Thread nD τ).loc main_arg0) :=
  calc Wb4 m ρ c (Proc.devRef .tc main_arg0)
    _ = Wb3 m ρ c (Proc.devRef .tc main_arg0) := (Wb4_arr m ρ c 0).trans (((dat1 (Vb3 m ρ) c).arrAt_in 0 rfl _).trans (A_eq1 (Vb3 m ρ) c 0))
    _ = Wb2 m ρ c (Proc.devRef .tc main_arg0) := StableHlo.after_of_writes_sub hostOps1 _ hostOps1_writes (r := main_arg0) (by decide)
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := StableHlo.after_of_writes_sub hostOps0 _ hostOps0_writes (r := main_arg0) (by decide)
    _ = m ((c : Thread nD τ).loc main_arg0) := rfl
/-- The other three arguments are no window of either region and no host stretch writes them. -/
theorem Wb4_of_arg (c : Dev nD) (b : Ref sig .tc) (h1 : ∀ w, Pipeline.arrRef spec1 w ≠ b) (h0 : ∀ w, Pipeline.arrRef spec0 w ≠ b)
    (hw1 : b ∉ hostOps1_W) (hw0 : b ∉ hostOps0_W) : Wb4 m ρ c (Proc.devRef .tc b) = m ((c : Thread nD τ).loc b) :=
  calc Wb4 m ρ c (Proc.devRef .tc b)
    _ = Wb3 m ρ c (Proc.devRef .tc b) := Wb4_of_ne m ρ c b h1
    _ = Wb2 m ρ c (Proc.devRef .tc b) := StableHlo.after_of_writes_sub hostOps1 _ hostOps1_writes hw1
    _ = Wb1 m ρ c (Proc.devRef .tc b) := Wb2_of_ne m ρ c b h0
    _ = Wb0 m ρ c (Proc.devRef .tc b) := StableHlo.after_of_writes_sub hostOps0 _ hostOps0_writes hw0
    _ = m ((c : Thread nD τ).loc b) := rfl
theorem Wb4_main_arg1 (c : Dev nD) : Wb4 m ρ c (Proc.devRef .tc main_arg1) = m ((c : Thread nD τ).loc main_arg1) :=
  Wb4_of_arg m ρ c main_arg1 (by decide) (by decide) (by decide) (by decide)
theorem Wb4_main_arg2 (c : Dev nD) : Wb4 m ρ c (Proc.devRef .tc main_arg2) = m ((c : Thread nD τ).loc main_arg2) :=
  Wb4_of_arg m ρ c main_arg2 (by decide) (by decide) (by decide) (by decide)
theorem Wb4_main_arg3 (c : Dev nD) : Wb4 m ρ c (Proc.devRef .tc main_arg3) = m ((c : Thread nD τ).loc main_arg3) :=
  Wb4_of_arg m ρ c main_arg3 (by decide) (by decide) (by decide) (by decide)

/-! ## The proof data family and the thread state -/

abbrev padm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) padm p) c
  | ⟨0, _⟩ => fun c => dat0 (Vb1 m ρ) c
  | ⟨1, _⟩ => fun c => dat1 (Vb3 m ρ) c
abbrev 𝒱n : Variants := Variants.none
abbrev Ln : GSem nD τ sig → Finset Unit := fun _ => ∅
abbrev lvn : GSem nD τ sig → Unit → ℕ := fun _ _ => 0
/-- What rides beside the buffers through every segment: the generator register at some state, and nothing owed. -/
abbrev Rb (c : Dev nD) : sProp 𝕄 := iprop((∃ r, prngReg c r) ∗ ∃ W, owes (c : Thread nD τ) (0 : CellTallies nD τ sig Unit) W)
abbrev hsegb (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rb
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Wb4 m ρ c) ∗ ∃ r, prngReg c r)

/-! ## The regions as segments -/

set_option backward.isDefEq.respectTransparency.types false in
/-- Region 0 as a segment of the program: entered with every unscoped buffer at `Wb1`, left with them at `Wb2`.
    Its arrays are split out of the unscoped buffers at entry and put back at exit; the generator register goes into the
    region's invariant and comes back; the accumulator's contents are named only inside; nothing is owed. -/
def reg0 : Pipeline.RegionSeg (pcfgs (F := F)) padm (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ Ln lvn 0 fun _ _ => rfl
  pre c := iprop(StableHlo.held (c : Thread nD τ) (Pipeline.ucRefs τ sig) (Wb1 m ρ c) ∗ Rb c)
  post c := iprop(StableHlo.held (c : Thread nD τ) (Pipeline.ucRefs τ sig) (Wb2 m ρ c) ∗ Rb c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec0 c from by
      unfold Pipeline.ΦA
      iintro ⟨Hp, -, Hr⟩
      isplitl [Hr]; · iexact Hr
      iexact Hp).trans (hin0 (Vb1 m ρ) c)
  hout c := by
    rw [Pipeline.ownSems0_none]
    exact (hout0 (Vb1 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer at `Wb3`, left with them at `Wb4`.
    Its arrays are split out of the unscoped buffers at entry and put back at exit; the generator register goes into the
    region's invariant and comes back; the accumulator's contents are named only inside; nothing is owed. -/
def reg1 : Pipeline.RegionSeg (pcfgs (F := F)) padm (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ Ln lvn 1 fun _ _ => rfl
  pre c := iprop(StableHlo.held (c : Thread nD τ) (Pipeline.ucRefs τ sig) (Wb3 m ρ c) ∗ Rb c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec1 c from by
      unfold Pipeline.ΦA
      iintro ⟨Hp, -, Hr⟩
      isplitl [Hr]; · iexact Hr
      iexact Hp).trans (hin1 (Vb3 m ρ) c)
  hout c := by
    rw [Pipeline.ownSems0_none]
    exact (hout1 (Vb3 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev psegs : List (Pipeline.Seg (pcfgs (F := F)) padm (pdats m ρ) () defs₀ 𝒱n Ln lvn) :=
  [ .host (hsegb hostOps0 hostOps0_sub hostOps0_fresh (Wb0 m ρ)),
    .region (reg0 m ρ),
    .host (hsegb hostOps1 hostOps1_sub hostOps1_fresh (Wb2 m ρ)),
    .region (reg1 m ρ) ]
theorem main_run (c : Dev nD) : main (F := F) c = Pipeline.Seg.run (psegs m ρ) := (main_chain c).trans (by chain_rfl)

set_option backward.isDefEq.respectTransparency.types false in
/-- Every weakly fair execution of the program from memory `m` with zero counters terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) padm (pdats m ρ) () cellOf_inj emb₁ defs₀ 𝒱n Ln lvn m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rb c)) (Tₙ := Tn m ρ)
    (hch := ⟨fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wb4_main_arg0 m ρ c),
     (h c _ (mem_uc main_arg1 (by decide))).trans (Wb4_main_arg1 m ρ c),
     (h c _ (mem_uc main_arg2 (by decide))).trans (Wb4_main_arg2 m ρ c),
     (h c _ (mem_uc main_arg3 (by decide))).trans (Wb4_main_arg3 m ρ c)⟩) (run_all m ρ)

end Cert.Kernel.Fr

end
-- ==== Proof.KI.Kit0.lean ====
/-
  Region 0 of the program (the first graph-convolution layer's kernel) on its 4 × 8 grid, stated at a PARAMETER `V`: the
  contents of the core's buffers when the region is entered.  A grid point t has coordinates (t / 8, t % 8): the row
  tile and the column block of the adjacency matrix.  The body zeroes its accumulator where t % 8 = 0, adds one block
  product at every point, and stores the activation of the accumulator into the output block where t % 8 = 7; so a
  point is in exactly one of three cases (first / middle / last column block), and the output window is idle — not
  stored, not written back — except in the last.
-/
import proofs.«170206_j10720238371545_2_alg».proof.Proof.Gen.KernelIdeal.Launch
import proofs.«170206_j10720238371545_2_alg».proof.Proof.Gen.KernelIdeal.Skeleton
import proofs.«170206_j10720238371545_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The resident right operand's staging buffer holds the whole operand at every point (fetched once, never moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the first column block" (the accumulator is zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (the activation is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column block the output block is neither stored nor written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column block it is stored. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0 : View sig .tc .vmem S2048x256 .f32 := (Memref.whole cc0_stg2_0 : Memref sig .tc .vmem S2048x256 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x256 .f32 := Memref.whole cc0_scratch0
abbrev VS0 : View sig .tc .vmem S2048x256 .f32 := scM0.view

/-- The scoped buffers of the OTHER region (its staging buffers and its accumulator), each whole at some contents:
    they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant hands out the accumulator (a memref owned at some contents), the other region's scoped
    buffers and the generator register, -/
theorem PhiA0_to (c : Dev nD) :
    (Pipeline.ΦA spec0 c : sProp 𝕄)
      ⊢ iprop(iprop((∃ d, owns (c : Thread nD τ) scM0 fullShare d) ∗ others0 c) ∗ (∃ r, prngReg c r)) := by
  unfold Pipeline.ΦA others0; rw [scopedRest0_eq]; simp only [scM0, owns_whole]
  iintro ⟨⟨HS, O1, O2, O3, O4, O5, O6⟩, Hg⟩
  isplitr [Hg]
  · isplitl [HS]; · iexact HS
    isplitl [O1]; · iexact O1
    isplitl [O2]; · iexact O2
    isplitl [O3]; · iexact O3
    isplitl [O4]; · iexact O4
    isplitl [O5]; · iexact O5
    iexact O6
  iexact Hg

/-- and is made of them again. -/
theorem PhiA0_of (c : Dev nD) :
    (iprop(iprop((∃ d, owns (c : Thread nD τ) scM0 fullShare d) ∗ others0 c) ∗ (∃ r, prngReg c r)) : sProp 𝕄)
      ⊢ Pipeline.ΦA spec0 c := by
  unfold Pipeline.ΦA others0; rw [scopedRest0_eq]; simp only [scM0, owns_whole]
  iintro ⟨⟨HS, O1, O2, O3, O4, O5, O6⟩, Hg⟩
  isplitr [Hg]
  · isplitl [HS]; · iexact HS
    isplitl [O1]; · iexact O1
    isplitl [O2]; · iexact O2
    isplitl [O3]; · iexact O3
    isplitl [O4]; · iexact O4
    isplitl [O5]; · iexact O5
    iexact O6
  iexact Hg

/-- The same from the accumulator at named contents: they are forgotten. -/
theorem PhiA0_of_named (c : Dev nD) (x : Vec F S2048x256 .f32) :
    (iprop(iprop(owns (c : Thread nD τ) scM0 fullShare x ∗ others0 c) ∗ (∃ r, prngReg c r)) : sProp 𝕄)
      ⊢ Pipeline.ΦA spec0 c :=
  (show (iprop(iprop(owns (c : Thread nD τ) scM0 fullShare x ∗ others0 c) ∗ (∃ r, prngReg c r)) : sProp 𝕄)
      ⊢ iprop(iprop((∃ d, owns (c : Thread nD τ) scM0 fullShare d) ∗ others0 c) ∗ (∃ r, prngReg c r)) from by
    iintro ⟨⟨HS, Hoth⟩, Hg⟩
    isplitl [HS Hoth]
    · isplitl [HS]
      · iexists _; iexact HS
      iexact Hoth
    iexact Hg).trans (PhiA0_of c)

end Cert.KernelIdeal.Fr

end
-- ==== Proof.KI.Run0A.lean ====
/-
  The body of region 0 at the first column block (the accumulator is zeroed, then one block product added; the output block untouched): its run on whole
  staging memrefs, found by symbolic execution of the body's skeleton; the pieces the accumulator ends with are the
  witness the run finds.
-/
import proofs.«170206_j10720238371545_2_alg».proof.Proof.KI.Kit0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at anything: the body runs, and leaves the accumulator with the pieces `LS` written. -/
noncomputable def kernelRun0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : ¬cond0_1 i)
    (x0 : Vec F S2048x1024 .f32) (x1 : Vec F S8192x256 .f32) :
    { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gcn_layer_kernel i arg2 harg2 arg3 harg3 arg4 harg4 arg5 harg5) K } := by
  refine ⟨?_, fun xi E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.Run0B.lean ====
/-
  The body of region 0 at a middle column block (one block product added to the accumulator; the output block untouched): its run on whole
  staging memrefs, found by symbolic execution of the body's skeleton; the pieces the accumulator ends with are the
  witness the run finds.
-/
import proofs.«170206_j10720238371545_2_alg».proof.Proof.KI.Kit0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at `xs`: the body runs, and leaves the accumulator with the pieces `LS` written. -/
noncomputable def kernelRun0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : ¬cond0_1 i)
    (x0 : Vec F S2048x1024 .f32) (x1 : Vec F S8192x256 .f32) (xs : Vec F S2048x256 .f32) :
    { LS : List (View.Piece (Elt F) S2048x256 .f32) //
      ∀ (xi : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__gcn_layer_kernel i arg2 harg2 arg3 harg3 arg4 harg4 arg5 harg5) K } := by
  refine ⟨?_, fun xi E K => ?run⟩
  case run =>
    simp only [cc0__gcn_layer_kernel_eq_skeleton]; unfold cc0__gcn_layer_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.Run0C.lean ====
/-
  The body of region 0 at the last column block (one block product added, then the activation of the accumulator stored into the output block): its run on whole
  staging memrefs, found by symbolic execution of the body's skeleton; the pieces the output's buffer and the
  accumulator end with are the witnesses the run finds.
-/
import proofs.«170206_j10720238371545_2_alg».proof.Proof.KI.Kit0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at anything, the accumulator at `xs`:
    the body runs, and leaves the output's buffer with the pieces `LO` and the accumulator with the pieces `LS` written. -/
noncomputable def kernelRun0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__gcn_layer_kernel i arg2 harg2 arg3 harg3 arg4 harg4 arg5 harg5) K } := by
  refine ⟨?_, ?_, fun E K => ?run⟩
  case run =>
    simp only [cc0__gcn_layer_kernel_eq_skeleton]; unfold cc0__gcn_layer_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Fr

end
-- ==== Proof.KI.Frame0.lean ====
/-
  Region 0, the rest of its frame: what each case leaves in the accumulator and in the output's buffer, the same
  point by point over the grid (the accumulation), the region's invariant — the accumulator at what the point before
  left, the other region's scoped buffers and the generator register at anything —, the proof data at the entry contents
  `V`, and the body obligation at every point.
-/
import proofs.«170206_j10720238371545_2_alg».proof.Proof.KI.Run0A
import proofs.«170206_j10720238371545_2_alg».proof.Proof.KI.Run0B
import proofs.«170206_j10720238371545_2_alg».proof.Proof.KI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First column block: the one store of the accumulator covers it. -/
theorem scover0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : ¬cond0_1 i)
    (x0 : Vec F S2048x1024 .f32) (x1 : Vec F S8192x256 .f32) (y : S2048x256.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x256.size (by sl_kernel_rfl) y
/-- What it leaves in the accumulator: its pieces read back. -/
def sout0_A (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : ¬cond0_1 i)
    (x0 : Vec F S2048x1024 .f32) (x1 : Vec F S8192x256 .f32) : Vec F S2048x256 .f32 :=
  VS0.read (Elt F) (VS0.writes (Elt F) VS0.junk (kernelRun0_A c i arg2 harg2 arg3 harg3 arg4 harg4 arg5 harg5 hc0 hc1 x0 x1).1)

/-- A middle column block. -/
theorem scover0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : ¬cond0_1 i)
    (x0 : Vec F S2048x1024 .f32) (x1 : Vec F S8192x256 .f32) (xs : Vec F S2048x256 .f32) (y : S2048x256.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S2048x256.size (by sl_kernel_rfl) y
def sout0_B (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : ¬cond0_1 i)
    (x0 : Vec F S2048x1024 .f32) (x1 : Vec F S8192x256 .f32) (xs : Vec F S2048x256 .f32) : Vec F S2048x256 .f32 :=
  VS0.read (Elt F) (VS0.writes (Elt F) VS0.junk (kernelRun0_B c i arg2 harg2 arg3 harg3 arg4 harg4 arg5 harg5 hc0 hc1 x0 x1 xs).1)

/-- The last column block: the accumulator's store covers it, and so does the output's. -/
theorem scover0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) (y : S2048x256.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S2048x256.size (by sl_kernel_rfl) y
def sout0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) : Vec F S2048x256 .f32 :=
  VS0.read (Elt F) (VS0.writes (Elt F) VS0.junk (kernelRun0_C c i arg2 harg2 arg3 harg3 arg4 harg4 arg5 harg5 hc0 hc1 x0 x1 xs).2.1)
theorem cover0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) (y : S2048x256.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S2048x256.size (by sl_kernel_rfl) y
/-- What it leaves in the output's buffer. -/
def out0_C (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) : Vec F S2048x256 .f32 :=
  VO0.read (Elt F) (VO0.writes (Elt F) VO0.junk (kernelRun0_C c i arg2 harg2 arg3 harg3 arg4 harg4 arg5 harg5 hc0 hc1 x0 x1 xs).1)

/-! ## The accumulation, point by point -/

/-- After the body at position `n`: (the output's buffer, the accumulator).  The output component is a placeholder
    away from the last column block (there the window is idle: nothing consults it). -/
def outsAt0 (c : Dev nD) : (n : ℕ) → n < cfg0.N → Vec F S2048x256 .f32 × Vec F S2048x256 .f32
  | 0, hn => ((VO0.read (Elt F) VO0.junk), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => absurd ((hcond0_1 ⟨0, hn⟩).mp h) (by show ¬ 0 % 8 = 7; decide)) (iblk0 V c 0 ⟨0, hn⟩) (iblk0 V c 1 ⟨0, hn⟩))
  | n + 1, hn =>
    if h0 : (n + 1) % 8 = 0 then
      ((VO0.read (Elt F) VO0.junk), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => absurd ((hcond0_1 ⟨n + 1, hn⟩).mp h) (by (try dsimp only); omega)) (iblk0 V c 0 ⟨n + 1, hn⟩) (iblk0 V c 1 ⟨n + 1, hn⟩))
    else if h1 : (n + 1) % 8 = 7 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      ((VO0.read (Elt F) VO0.junk), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = ((VO0.read (Elt F) VO0.junk), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = ((VO0.read (Elt F) VO0.junk), sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class's invariant (every scoped buffer at anything); afterwards the
    accumulator at what the point before left, the other region's scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The arrays as the region finds them; after the body each input's buffer at its block, the output's and the
    accumulator at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point.  The inputs' buffers hold their blocks; the point's position among the column blocks says
    which case runs; the invariant hands the body the accumulator at what the point before left (at anything where the
    accumulator is zeroed first) and takes it back at this point's contents; the other region's buffers and the
    generator register pass through; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz]
      refine (sep_mono (PhiA0_to c) .rfl).trans ?_
      iintro ⟨⟨⟨HS, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover0_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The class invariant is the region's invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ ht]
  exact PhiA0_of_named c _

end Cert.KernelIdeal.Fr

end
-- ==== Proof.KI.Kit1.lean ====
/-
  Region 1 of the program (the second graph-convolution layer's kernel) on its 4 × 8 grid, stated at a PARAMETER `V`: the
  contents of the core's buffers when the region is entered.  A grid point t has coordinates (t / 8, t % 8): the row
  tile and the column block of the adjacency matrix.  The body zeroes its accumulator where t % 8 = 0, adds one block
  product at every point, and stores the activation of the accumulator into the output block where t % 8 = 7; so a
  point is in exactly one of three cases (first / middle / last column block), and the output window is idle — not
  stored, not written back — except in the last.
-/
import proofs.«170206_j10720238371545_2_alg».proof.Proof.Gen.KernelIdeal.Launch
import proofs.«170206_j10720238371545_2_alg».proof.Proof.Gen.KernelIdeal.Skeleton
import proofs.«170206_j10720238371545_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's staging buffer holds its block at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident right operand's staging buffer holds the whole operand at every point (fetched once, never moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the first column block" (the accumulator is zeroed). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last column block" (the activation is stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last column block the output block is neither stored nor written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last column block it is stored. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1 : View sig .tc .vmem S2048x64 .f32 := (Memref.whole cc1_stg2_0 : Memref sig .tc .vmem S2048x64 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S2048x64 .f32 := Memref.whole cc1_scratch0
abbrev VS1 : View sig .tc .vmem S2048x64 .f32 := scM1.view

/-- The scoped buffers of the OTHER region (its staging buffers and its accumulator), each whole at some contents:
    they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant hands out the accumulator (a memref owned at some contents), the other region's scoped
    buffers and the generator register, -/
theorem PhiA1_to (c : Dev nD) :
    (Pipeline.ΦA spec1 c : sProp 𝕄)
      ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨O1, O2, O3, O4, O5, O6, HS⟩, Hg⟩
  isplitr [Hg]
  · isplitl [HS]; · iexact HS
    isplitl [O1]; · iexact O1
    isplitl [O2]; · iexact O2
    isplitl [O3]; · iexact O3
    isplitl [O4]; · iexact O4
    isplitl [O5]; · iexact O5
    iexact O6
  iexact Hg

/-- and is made of them again. -/
theorem PhiA1_of (c : Dev nD) :
    (iprop(iprop((∃ d, owns (c : Thread nD τ) scM1 fullShare d) ∗ others1 c) ∗ (∃ r, prngReg c r)) : sProp 𝕄)
      ⊢ Pipeline.ΦA spec1 c := by
  unfold Pipeline.ΦA others1; rw [scopedRest1_eq]; simp only [scM1, owns_whole]
  iintro ⟨⟨HS, O1, O2, O3, O4, O5, O6⟩, Hg⟩
  isplitr [Hg]
  · isplitl [O1]; · iexact O1
    isplitl [O2]; · iexact O2
    isplitl [O3]; · iexact O3
    isplitl [O4]; · iexact O4
    isplitl [O5]; · iexact O5
    isplitl [O6]; · iexact O6
    iexact HS
  iexact Hg

/-- The same from the accumulator at named contents: they are forgotten. -/
theorem PhiA1_of_named (c : Dev nD) (x : Vec F S2048x64 .f32) :
    (iprop(iprop(owns (c : Thread nD τ) scM1 fullShare x ∗ others1 c) ∗ (∃ r, prngReg c r)) : sProp 𝕄)
      ⊢ Pipeline.ΦA spec1 c :=
  (show (iprop(iprop(owns (c : Thread nD τ) scM1 fullShare x ∗ others1 c) ∗ (∃ r, prngReg c r)) : sProp 𝕄)
      ⊢ iprop(iprop((∃ d, owns (c : Thread nD τ) scM1 fullShare d) ∗ others1 c) ∗ (∃ r, prngReg c r)) from by
    iintro ⟨⟨HS, Hoth⟩, Hg⟩
    isplitl [HS Hoth]
    · isplitl [HS]
      · iexists _; iexact HS
      iexact Hoth
    iexact Hg).trans (PhiA1_of c)

end Cert.KernelIdeal.Fr

end
-- ==== Proof.KI.Run1A.lean ====
/-
  The body of region 1 at the first column block (the accumulator is zeroed, then one block product added; the output block untouched): its run on whole
  staging memrefs, found by symbolic execution of the body's skeleton; the pieces the accumulator ends with are the
  witness the run finds.
-/
import proofs.«170206_j10720238371545_2_alg».proof.Proof.KI.Kit1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at anything: the body runs, and leaves the accumulator with the pieces `LS` written. -/
noncomputable def kernelRun1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x1024 .f32) (x1 : Vec F S8192x64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__gcn_layer_kernel i arg2 harg2 arg3 harg3 arg4 harg4 arg5 harg5) K } := by
  refine ⟨?_, fun xi E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.Run1B.lean ====
/-
  The body of region 1 at a middle column block (one block product added to the accumulator; the output block untouched): its run on whole
  staging memrefs, found by symbolic execution of the body's skeleton; the pieces the accumulator ends with are the
  witness the run finds.
-/
import proofs.«170206_j10720238371545_2_alg».proof.Proof.KI.Kit1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at `xi` (handed back untouched), the
    accumulator at `xs`: the body runs, and leaves the accumulator with the pieces `LS` written. -/
noncomputable def kernelRun1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x1024 .f32) (x1 : Vec F S8192x64 .f32) (xs : Vec F S2048x64 .f32) :
    { LS : List (View.Piece (Elt F) S2048x64 .f32) //
      ∀ (xi : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__gcn_layer_kernel i arg2 harg2 arg3 harg3 arg4 harg4 arg5 harg5) K } := by
  refine ⟨?_, fun xi E K => ?run⟩
  case run =>
    simp only [cc1__gcn_layer_kernel_eq_skeleton]; unfold cc1__gcn_layer_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.Run1C.lean ====
/-
  The body of region 1 at the last column block (one block product added, then the activation of the accumulator stored into the output block): its run on whole
  staging memrefs, found by symbolic execution of the body's skeleton; the pieces the output's buffer and the
  accumulator end with are the witnesses the run finds.
-/
import proofs.«170206_j10720238371545_2_alg».proof.Proof.KI.Kit1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The adjacency tile at `x0`, the resident operand at `x1`, the output's buffer at anything, the accumulator at `xs`:
    the body runs, and leaves the output's buffer with the pieces `LO` and the accumulator with the pieces `LS` written. -/
noncomputable def kernelRun1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) :
    Σ' (LO : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__gcn_layer_kernel i arg2 harg2 arg3 harg3 arg4 harg4 arg5 harg5) K } := by
  refine ⟨?_, ?_, fun E K => ?run⟩
  case run =>
    simp only [cc1__gcn_layer_kernel_eq_skeleton]; unfold cc1__gcn_layer_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Fr

end
-- ==== Proof.KI.Frame1.lean ====
/-
  Region 1, the rest of its frame: what each case leaves in the accumulator and in the output's buffer, the same
  point by point over the grid (the accumulation), the region's invariant — the accumulator at what the point before
  left, the other region's scoped buffers and the generator register at anything —, the proof data at the entry contents
  `V`, and the body obligation at every point.
-/
import proofs.«170206_j10720238371545_2_alg».proof.Proof.KI.Run1A
import proofs.«170206_j10720238371545_2_alg».proof.Proof.KI.Run1B
import proofs.«170206_j10720238371545_2_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First column block: the one store of the accumulator covers it. -/
theorem scover1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x1024 .f32) (x1 : Vec F S8192x64 .f32) (y : S2048x64.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2048x64.size (by sl_kernel_rfl) y
/-- What it leaves in the accumulator: its pieces read back. -/
def sout1_A (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x1024 .f32) (x1 : Vec F S8192x64 .f32) : Vec F S2048x64 .f32 :=
  VS1.read (Elt F) (VS1.writes (Elt F) VS1.junk (kernelRun1_A c i arg2 harg2 arg3 harg3 arg4 harg4 arg5 harg5 hc0 hc1 x0 x1).1)

/-- A middle column block. -/
theorem scover1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x1024 .f32) (x1 : Vec F S8192x64 .f32) (xs : Vec F S2048x64 .f32) (y : S2048x64.Idx) :
    ∃ pc ∈ (kernelRun1_B c i arg2 harg2 arg3 harg3 arg4 harg4 arg5 harg5 hc0 hc1 x0 x1 xs).1, y ∈ pc.1.set :=
  View.cover_of_tiledL (kernelRun1_B c i arg2 harg2 arg3 harg3 arg4 harg4 arg5 harg5 hc0 hc1 x0 x1 xs).1 S2048x64.size (by sl_kernel_rfl) y
def sout1_B (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x1024 .f32) (x1 : Vec F S8192x64 .f32) (xs : Vec F S2048x64 .f32) : Vec F S2048x64 .f32 :=
  VS1.read (Elt F) (VS1.writes (Elt F) VS1.junk (kernelRun1_B c i arg2 harg2 arg3 harg3 arg4 harg4 arg5 harg5 hc0 hc1 x0 x1 xs).1)

/-- The last column block: the accumulator's store covers it, and so does the output's. -/
theorem scover1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) (y : S2048x64.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x64.size (by sl_kernel_rfl) y
def sout1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) : Vec F S2048x64 .f32 :=
  VS1.read (Elt F) (VS1.writes (Elt F) VS1.junk (kernelRun1_C c i arg2 harg2 arg3 harg3 arg4 harg4 arg5 harg5 hc0 hc1 x0 x1 xs).2.1)
theorem cover1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) (y : S2048x64.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x64.size (by sl_kernel_rfl) y
/-- What it leaves in the output's buffer. -/
def out1_C (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) : Vec F S2048x64 .f32 :=
  VO1.read (Elt F) (VO1.writes (Elt F) VO1.junk (kernelRun1_C c i arg2 harg2 arg3 harg3 arg4 harg4 arg5 harg5 hc0 hc1 x0 x1 xs).1)

/-! ## The accumulation, point by point -/

/-- After the body at position `n`: (the output's buffer, the accumulator).  The output component is a placeholder
    away from the last column block (there the window is idle: nothing consults it). -/
def outsAt1 (c : Dev nD) : (n : ℕ) → n < cfg1.N → Vec F S2048x64 .f32 × Vec F S2048x64 .f32
  | 0, hn => ((VO1.read (Elt F) VO1.junk), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => absurd ((hcond1_1 ⟨0, hn⟩).mp h) (by show ¬ 0 % 8 = 7; decide)) (iblk1 V c 0 ⟨0, hn⟩) (iblk1 V c 1 ⟨0, hn⟩))
  | n + 1, hn =>
    if h0 : (n + 1) % 8 = 0 then
      ((VO1.read (Elt F) VO1.junk), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => absurd ((hcond1_1 ⟨n + 1, hn⟩).mp h) (by (try dsimp only); omega)) (iblk1 V c 0 ⟨n + 1, hn⟩) (iblk1 V c 1 ⟨n + 1, hn⟩))
    else if h1 : (n + 1) % 8 = 7 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
    else
      ((VO1.read (Elt F) VO1.junk), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = ((VO1.read (Elt F) VO1.junk), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = ((VO1.read (Elt F) VO1.junk), sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the class's invariant (every scoped buffer at anything); afterwards the
    accumulator at what the point before left, the other region's scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- The arrays as the region finds them; after the body each input's buffer at its block, the output's and the
    accumulator at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' buffers hold their blocks; the point's position among the column blocks says
    which case runs; the invariant hands the body the accumulator at what the point before left (at anything where the
    accumulator is zeroed first) and takes it back at this point's contents; the other region's buffers and the
    generator register pass through; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      refine (sep_mono (PhiA1_to c) .rfl).trans ?_
      iintro ⟨⟨⟨HS, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hoth⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover1_A c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS, Hoth⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS, Hoth⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The class invariant is the region's invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht]
  exact PhiA1_of_named c _

end Cert.KernelIdeal.Fr

end
-- ==== Proof.KI.FrameAll.lean ====
/-
  The whole program as four segments — the host product x·W₁, the first layer's kernel, the host product h·W₂, the
  second layer's kernel — with the contents of the core's buffers named at every boundary: a host stretch applies its
  operations; a region leaves each of its arrays at what its write-backs leave (the inputs as entered, the output at the
  fold of its blocks) and every other buffer as entered.  The run ends with every unscoped buffer at the last
  boundary's contents; the four arguments are read back through the fold to their launch contents.
-/
import proofs.«170206_j10720238371545_2_alg».proof.Proof.KI.Frame0
import proofs.«170206_j10720238371545_2_alg».proof.Proof.KI.Frame1
import proofs.«170206_j10720238371545_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wb0 : Dev nD → Valuation τ sig (Elt F) := fun c b => (s₀ m ρ).mem ((c : Dev nD), b)
/-- After x·W₁ (the first region's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b
/-- At the first region's exit. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After h·W₂ (the second region's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b
/-- At the second region's exit. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-! ## The arguments end as launched -/

/-- The adjacency matrix is an input window of both regions and no host stretch writes it. -/
theorem Wb4_main_arg0 (c : Dev nD) : Wb4 m ρ c (Proc.devRef .tc main_arg0) = m ((c : Thread nD τ).loc main_arg0) :=
  calc Wb4 m ρ c (Proc.devRef .tc main_arg0)
    _ = Wb3 m ρ c (Proc.devRef .tc main_arg0) := (Wb4_arr m ρ c 0).trans (((dat1 (Vb3 m ρ) c).arrAt_in 0 rfl _).trans (A_eq1 (Vb3 m ρ) c 0))
    _ = Wb2 m ρ c (Proc.devRef .tc main_arg0) := StableHlo.after_of_writes_sub hostOps1 _ hostOps1_writes (r := main_arg0) (by decide)
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := StableHlo.after_of_writes_sub hostOps0 _ hostOps0_writes (r := main_arg0) (by decide)
    _ = m ((c : Thread nD τ).loc main_arg0) := rfl
/-- The other three arguments are no window of either region and no host stretch writes them. -/
theorem Wb4_of_arg (c : Dev nD) (b : Ref sig .tc) (h1 : ∀ w, Pipeline.arrRef spec1 w ≠ b) (h0 : ∀ w, Pipeline.arrRef spec0 w ≠ b)
    (hw1 : b ∉ hostOps1_W) (hw0 : b ∉ hostOps0_W) : Wb4 m ρ c (Proc.devRef .tc b) = m ((c : Thread nD τ).loc b) :=
  calc Wb4 m ρ c (Proc.devRef .tc b)
    _ = Wb3 m ρ c (Proc.devRef .tc b) := Wb4_of_ne m ρ c b h1
    _ = Wb2 m ρ c (Proc.devRef .tc b) := StableHlo.after_of_writes_sub hostOps1 _ hostOps1_writes hw1
    _ = Wb1 m ρ c (Proc.devRef .tc b) := Wb2_of_ne m ρ c b h0
    _ = Wb0 m ρ c (Proc.devRef .tc b) := StableHlo.after_of_writes_sub hostOps0 _ hostOps0_writes hw0
    _ = m ((c : Thread nD τ).loc b) := rfl
theorem Wb4_main_arg1 (c : Dev nD) : Wb4 m ρ c (Proc.devRef .tc main_arg1) = m ((c : Thread nD τ).loc main_arg1) :=
  Wb4_of_arg m ρ c main_arg1 (by decide) (by decide) (by decide) (by decide)
theorem Wb4_main_arg2 (c : Dev nD) : Wb4 m ρ c (Proc.devRef .tc main_arg2) = m ((c : Thread nD τ).loc main_arg2) :=
  Wb4_of_arg m ρ c main_arg2 (by decide) (by decide) (by decide) (by decide)
theorem Wb4_main_arg3 (c : Dev nD) : Wb4 m ρ c (Proc.devRef .tc main_arg3) = m ((c : Thread nD τ).loc main_arg3) :=
  Wb4_of_arg m ρ c main_arg3 (by decide) (by decide) (by decide) (by decide)

/-! ## The proof data family and the thread state -/

abbrev padm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) padm p) c
  | ⟨0, _⟩ => fun c => dat0 (Vb1 m ρ) c
  | ⟨1, _⟩ => fun c => dat1 (Vb3 m ρ) c
abbrev 𝒱n : Variants := Variants.none
abbrev Ln : GSem nD τ sig → Finset Unit := fun _ => ∅
abbrev lvn : GSem nD τ sig → Unit → ℕ := fun _ _ => 0
/-- What rides beside the buffers through every segment: the generator register at some state, and nothing owed. -/
abbrev Rb (c : Dev nD) : sProp 𝕄 := iprop((∃ r, prngReg c r) ∗ ∃ W, owes (c : Thread nD τ) (0 : CellTallies nD τ sig Unit) W)
abbrev hsegb (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rb
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Wb4 m ρ c) ∗ ∃ r, prngReg c r)

/-! ## The regions as segments -/

set_option backward.isDefEq.respectTransparency.types false in
/-- Region 0 as a segment of the program: entered with every unscoped buffer at `Wb1`, left with them at `Wb2`.
    Its arrays are split out of the unscoped buffers at entry and put back at exit; the generator register goes into the
    region's invariant and comes back; the accumulator's contents are named only inside; nothing is owed. -/
def reg0 : Pipeline.RegionSeg (pcfgs (F := F)) padm (pdats m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ Ln lvn 0 fun _ _ => rfl
  pre c := iprop(StableHlo.held (c : Thread nD τ) (Pipeline.ucRefs τ sig) (Wb1 m ρ c) ∗ Rb c)
  post c := iprop(StableHlo.held (c : Thread nD τ) (Pipeline.ucRefs τ sig) (Wb2 m ρ c) ∗ Rb c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec0 c from by
      unfold Pipeline.ΦA
      iintro ⟨Hp, -, Hr⟩
      isplitl [Hr]; · iexact Hr
      iexact Hp).trans (hin0 (Vb1 m ρ) c)
  hout c := by
    rw [Pipeline.ownSems0_none]
    exact (hout0 (Vb1 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer at `Wb3`, left with them at `Wb4`.
    Its arrays are split out of the unscoped buffers at entry and put back at exit; the generator register goes into the
    region's invariant and comes back; the accumulator's contents are named only inside; nothing is owed. -/
def reg1 : Pipeline.RegionSeg (pcfgs (F := F)) padm (pdats m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ Ln lvn 1 fun _ _ => rfl
  pre c := iprop(StableHlo.held (c : Thread nD τ) (Pipeline.ucRefs τ sig) (Wb3 m ρ c) ∗ Rb c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec1 c from by
      unfold Pipeline.ΦA
      iintro ⟨Hp, -, Hr⟩
      isplitl [Hr]; · iexact Hr
      iexact Hp).trans (hin1 (Vb3 m ρ) c)
  hout c := by
    rw [Pipeline.ownSems0_none]
    exact (hout1 (Vb3 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev psegs : List (Pipeline.Seg (pcfgs (F := F)) padm (pdats m ρ) () defs₀ 𝒱n Ln lvn) :=
  [ .host (hsegb hostOps0 hostOps0_sub hostOps0_fresh (Wb0 m ρ)),
    .region (reg0 m ρ),
    .host (hsegb hostOps1 hostOps1_sub hostOps1_fresh (Wb2 m ρ)),
    .region (reg1 m ρ) ]
theorem main_run (c : Dev nD) : main (F := F) c = Pipeline.Seg.run (psegs m ρ) := (main_chain c).trans (by chain_rfl)

set_option backward.isDefEq.respectTransparency.types false in
/-- Every weakly fair execution of the program from memory `m` with zero counters terminates, nothing faulting, and
    in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) padm (pdats m ρ) () cellOf_inj emb₁ defs₀ 𝒱n Ln lvn m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rb c)) (Tₙ := Tn m ρ)
    (hch := ⟨fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wb4_main_arg0 m ρ c),
     (h c _ (mem_uc main_arg1 (by decide))).trans (Wb4_main_arg1 m ρ c),
     (h c _ (mem_uc main_arg2 (by decide))).trans (Wb4_main_arg2 m ρ c),
     (h c _ (mem_uc main_arg3 (by decide))).trans (Wb4_main_arg3 m ρ c)⟩) (run_all m ρ)

end Cert.KernelIdeal.Fr

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«170206_j10720238371545_2_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibFoldLast.lean ====
/-
  Minimum and maximum reductions over the LAST axis, read at an index as a fold over that axis's coordinate.

  A `vector.multi_reduction <minimumf>` / `<maximumf>` and the host's one-operand `stablehlo.reduce` with a
  commutative and associative body fold, at a result index, over the set of source indices that drop to it. For the
  last axis of a rank-3 array `[A, B, C]` that set is `{(p, g, k) | k < C}` at the result index `(p, g)`, and for the
  last axis of a matrix `[A, B]` it is `{(p, k) | k < B}` at `p`: the folds below run over `k`, from the starting
  value left as it is written (the pattern of an infinity is never evaluated). All extents are arbitrary, so one
  statement serves a kernel's block and a reference's whole array.
-/
import Idealize.ShloMosaic.PureOps.Ideal.Laws
import Idealize.ShloMosaic.Lib.ValueIdx

noncomputable section

namespace Cert.Lib.FoldLast

open Idealize.ShloMosaic Idealize.ShloMosaic.ValueIdx

/-- The source index over `(p, g)` with `k` inserted on the last axis of a rank-3 shape is `(p, g, k)`. -/
theorem lift_last3 {A B C : Nat} (h : (⟨3, ![A, B, C]⟩ : Shape).Reduces [(2 : Fin 3)] ⟨2, ![A, B]⟩)
    (p : Fin A) (g : Fin B) (k : Fin C) : h.lift (ix2 p g) k = ix3 p g k := by
  funext c
  apply Fin.ext
  match c with
  | ⟨0, _⟩ => rfl
  | ⟨1, _⟩ => rfl
  | ⟨2, _⟩ => rfl

/-- The source index over `p` with `k` inserted on the last axis of a matrix is `(p, k)`. -/
theorem lift_last2 {A B : Nat} (h : (⟨2, ![A, B]⟩ : Shape).Reduces [(1 : Fin 2)] ⟨1, ![A]⟩)
    (p : Fin A) (k : Fin B) : h.lift (ix1 p) k = ix2 p k := by
  funext c
  apply Fin.ext
  match c with
  | ⟨0, _⟩ => rfl
  | ⟨1, _⟩ => rfl

variable {φ : FTy}

/-- A `multi_reduction <minimumf>` over the last axis of `[A, B, C]` at `(p, g)`: the fold of the minimum over `k` of
    the source at `(p, g, k)`. -/
theorem multiReduction_min_last3 {A B C : Nat} (x : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.minimumf.neutral φ hφ) (p : Fin A) (g : Fin B) :
    multiReduction .minimumf [(2 : Fin 3)] ⟨2, ![A, B]⟩ x acc h hφ hacc (ix2 p g)
      = (Finset.univ : Finset (Fin C)).fold FloatOps.minimumf (FloatOps.ofBits φ acc) (fun k => x (ix3 p g k)) := by
  rw [multiReduction_minimumf_eq_fold]
  refine (h.fold_filter_drop_single _ _ x (ix2 p g)).trans ?_
  exact congrArg (fun f => Finset.fold FloatOps.minimumf (FloatOps.ofBits φ acc) f (Finset.univ : Finset (Fin C)))
    (funext fun k => congrArg x (lift_last3 h p g k))

/-- A `multi_reduction <maximumf>` along the rows of `[A, B]` at `p`: the fold of the maximum over `k` of the source
    at `(p, k)`. -/
theorem multiReduction_max_last2 {A B : Nat} (x : FVec Ideal ⟨2, ![A, B]⟩ φ) (acc : BitVec φ.bits)
    (h : (⟨2, ![A, B]⟩ : Shape).Reduces [(1 : Fin 2)] ⟨1, ![A]⟩) (hφ : FKind.Formats φ)
    (hacc : acc = FKind.maximumf.neutral φ hφ) (p : Fin A) :
    multiReduction .maximumf [(1 : Fin 2)] ⟨1, ![A]⟩ x acc h hφ hacc (ix1 p)
      = (Finset.univ : Finset (Fin B)).fold FloatOps.maximumf (FloatOps.ofBits φ acc) (fun k => x (ix2 p k)) := by
  rw [multiReduction_maximumf_eq_fold]
  refine (h.fold_filter_drop_single _ _ x (ix1 p)).trans ?_
  exact congrArg (fun f => Finset.fold FloatOps.maximumf (FloatOps.ofBits φ acc) f (Finset.univ : Finset (Fin B)))
    (funext fun k => congrArg x (lift_last2 h p k))

/-- The host's reduce with a commutative and associative body over the last axis of `[A, B, C]` at `(p, g)`: the fold
    over `k` of the operand at `(p, g, k)`, from the rank-0 initial value's one element. -/
theorem hostReduce_last3 {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [(2 : Fin 3)] ⟨2, ![A, B]⟩)
    (h : (⟨3, ![A, B, C]⟩ : Shape).Reduces [(2 : Fin 3)] ⟨2, ![A, B]⟩) (hu : 0 < u.numel) (p : Fin A) (g : Fin B) :
    Host.reduce f x init h' hu (ix2 p g)
      = (Finset.univ : Finset (Fin C)).fold f (init (Shape.Idx.first hu)) (fun k => x (ix3 p g k)) := by
  refine (Host.reduce_eq_fold_single f x init h' h hu (ix2 p g)).trans ?_
  exact congrArg (fun y => Finset.fold f (init (Shape.Idx.first hu)) y (Finset.univ : Finset (Fin C)))
    (funext fun k => congrArg x (lift_last3 h p g k))

/-- The same along the rows of a matrix `[A, B]` at `p`. -/
theorem hostReduce_last2 {α : Type} {A B : Nat} {u : Shape} (f : α → α → α) [Std.Commutative f] [Std.Associative f]
    (x : (⟨2, ![A, B]⟩ : Shape).Idx → α) (init : u.Idx → α)
    (h' : (⟨2, ![A, B]⟩ : Shape).ReducesTo [(1 : Fin 2)] ⟨1, ![A]⟩)
    (h : (⟨2, ![A, B]⟩ : Shape).Reduces [(1 : Fin 2)] ⟨1, ![A]⟩) (hu : 0 < u.numel) (p : Fin A) :
    Host.reduce f x init h' hu (ix1 p)
      = (Finset.univ : Finset (Fin B)).fold f (init (Shape.Idx.first hu)) (fun k => x (ix2 p k)) := by
  refine (Host.reduce_eq_fold_single f x init h' h hu (ix1 p)).trans ?_
  exact congrArg (fun y => Finset.fold f (init (Shape.Idx.first hu)) y (Finset.univ : Finset (Fin B)))
    (funext fun k => congrArg x (lift_last2 h p k))

end Cert.Lib.FoldLast

end
-- ==== Proof.LibLogSoftmax.lean ====
/-
  The row-wise log-softmax of a matrix of extended reals, and its two spellings read at an entry, for any extents.

      rowLogSoftmax z (p, q) = (z(p,q) - m p) - log (∑ₖ exp (z(p,k) - m p)),      m p = rowMax z p,

  the maximum of row p folded from -∞. A kernel body spells it with reductions along the rows whose results are laid
  out as columns [A, 1] and repeated along the row (`kernel_logSoftmax_apply`); the host spells it with `reduce`s whose
  results are broadcast through [A] → [A, 1] → [A, B], and takes the greater of -∞ and the fold of the maximum, which is
  the fold (`host_logSoftmax_apply`). Each entry reads its own row only (`rowLogSoftmaxAt_congr`).
-/
import Idealize.ShloMosaic.PureOps.Ideal.Laws
import Idealize.ShloMosaic.Lib.ValueIdx
import Idealize.ShloMosaic.Lib.Pipeline.Value
import proofs.«170206_j10720238371545_2_alg».proof.Proof.LibOuterSum
import proofs.«170206_j10720238371545_2_alg».proof.Proof.LibRowReduce
import proofs.«170206_j10720238371545_2_alg».proof.Proof.LibFoldLast

noncomputable section

namespace Cert.LibLogSoftmax

open Idealize.ShloMosaic Idealize.ShloMosaic.ValueIdx

/-- A matrix of extended reals with `a` rows and `b` columns. -/
abbrev Arr (a b : Nat) : Type := (⟨2, ![a, b]⟩ : Shape).Idx → EReal

/-- The maximum of row `p`, folded from `-∞`. -/
def rowMax {M N : Nat} (z : Arr M N) (p : Fin M) : EReal :=
  (Finset.univ : Finset (Fin N)).fold max (⊥ : EReal) (fun k => z (ix2 p k))

/-- The row-wise log-softmax at row `p`, column `q`. -/
def rowLogSoftmaxAt {M N : Nat} (z : Arr M N) (p : Fin M) (q : Fin N) : EReal :=
  (z (ix2 p q) - rowMax z p) - Ideal.log (∑ k : Fin N, Ideal.exp (z (ix2 p k) - rowMax z p))

/-- The row-wise log-softmax as an array. -/
def rowLogSoftmax {M N : Nat} (z : Arr M N) : Arr M N := fun i => rowLogSoftmaxAt z (i 0) (i 1)

theorem rowLogSoftmax_ix2 {M N : Nat} (z : Arr M N) (p : Fin M) (q : Fin N) :
    rowLogSoftmax z (ix2 p q) = rowLogSoftmaxAt z p q := rfl

/-- The maximum of a row depends on that row only. -/
theorem rowMax_congr {M M' N : Nat} {z : Arr M N} {z' : Arr M' N} (p : Fin M) (p' : Fin M')
    (hz : ∀ k : Fin N, z (ix2 p k) = z' (ix2 p' k)) : rowMax z p = rowMax z' p' := by
  unfold rowMax
  exact congrArg (fun f => (Finset.univ : Finset (Fin N)).fold max (⊥ : EReal) f) (funext hz)

/-- A log-softmax entry depends on its row only. -/
theorem rowLogSoftmaxAt_congr {M M' N : Nat} {z : Arr M N} {z' : Arr M' N} (p : Fin M) (p' : Fin M') (q : Fin N)
    (hz : ∀ k : Fin N, z (ix2 p k) = z' (ix2 p' k)) : rowLogSoftmaxAt z p q = rowLogSoftmaxAt z' p' q := by
  unfold rowLogSoftmaxAt
  rw [rowMax_congr p p' hz, hz q, Finset.sum_congr rfl fun k _ => by rw [hz k]]

/-! ## The kernel's spelling -/

/-- A row's maximum (from -∞), laid out as a column and repeated along the row, at an entry. -/
theorem kernel_rowMax_apply {A B : Nat} (z : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ (multiReduction .maximumf [1] ⟨1, ![A]⟩ z 0xFF800000#32 h hφ hacc) hc) hb (ix2 a b)
      = rowMax z a := by
  rw [Cert.LibRowReduce.stat_bcast_apply, Cert.LibRowReduce.max_row2]
  rfl

/-- The kernel's log-softmax of a block at an entry. -/
theorem kernel_logSoftmax_apply {A B : Nat} (z : FVec Ideal ⟨2, ![A, B]⟩ .f32)
    (h : (⟨2, ![A, B]⟩ : Shape).Reduces [1] ⟨1, ![A]⟩) (hφ : FKind.Formats FTy.f32)
    (hmax : (0xFF800000#32 : BitVec 32) = 0xFF800000#32) (hadd : (0x00000000#32 : BitVec 32) = 0x00000000#32)
    (hc : (⟨1, ![A]⟩ : Shape).ShapeCasts ⟨2, ![A, 1]⟩) (hb : (⟨2, ![A, 1]⟩ : Shape).Broadcasts ⟨2, ![A, B]⟩)
    (a : Fin A) (b : Fin B) :
    subf (subf z (broadcastTo ⟨2, ![A, B]⟩ (shapeCast ⟨2, ![A, 1]⟩ (multiReduction .maximumf [1] ⟨1, ![A]⟩ z 0xFF800000#32 h hφ hmax) hc) hb))
        (broadcastTo ⟨2, ![A, B]⟩
          (log (shapeCast ⟨2, ![A, 1]⟩
            (multiReduction .add [1] ⟨1, ![A]⟩
              (exp (subf z (broadcastTo ⟨2, ![A, B]⟩ (shapeCast ⟨2, ![A, 1]⟩ (multiReduction .maximumf [1] ⟨1, ![A]⟩ z 0xFF800000#32 h hφ hmax) hc) hb)))
              0x00000000#32 h hφ hadd) hc)) hb) (ix2 a b)
      = rowLogSoftmax z (ix2 a b) := by
  have hm : ∀ k : Fin B,
      broadcastTo ⟨2, ![A, B]⟩ (shapeCast ⟨2, ![A, 1]⟩ (multiReduction .maximumf [1] ⟨1, ![A]⟩ z 0xFF800000#32 h hφ hmax) hc) hb (ix2 a k)
        = rowMax z a := fun k => kernel_rowMax_apply z h hφ hmax hc hb a k
  rw [subf_apply, subf_apply, hm b, Cert.LibOuterSum.bcast_col_apply]
  show (z (ix2 a b) - rowMax z a) - Ideal.log (shapeCast ⟨2, ![A, 1]⟩ _ hc (ix2 a (⟨0, Nat.one_pos⟩ : Fin 1))) = _
  rw [Cert.LibOuterSum.col_of_vec_apply, Cert.LibRowReduce.sum_row2, rowLogSoftmax_ix2]
  unfold rowLogSoftmaxAt
  refine congrArg (fun s => (z (ix2 a b) - rowMax z a) - Ideal.log s) (Finset.sum_congr rfl fun k _ => ?_)
  show Ideal.exp (z (ix2 a k) - _) = _
  rw [hm k]

/-! ## The host's spelling -/

/-- A per-row value [A] broadcast through [A, 1] to [A, B] reads, at (a, b), the value of row a. -/
theorem host_stat_apply {A B : Nat} {α : Type} (v : (⟨1, ![A]⟩ : Shape).Idx → α)
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    broadcastInDim ⟨2, ![A, B]⟩ ![0, 1] h2 (broadcastInDim ⟨2, ![A, 1]⟩ ![0] h1 v) (ix2 a b) = v (ix1 a) := by
  refine (broadcastInDim_apply _ h2 _ (ix2 a b) (ix2 a (0 : Fin 1)) fun d => ?_).trans
    (broadcastInDim_apply _ h1 v (ix2 a (0 : Fin 1)) (ix1 a) fun d => ?_)
  · match d with
    | ⟨0, _⟩ =>
      show a.val = if A = 1 then 0 else a.val
      split
      · have := a.isLt; omega
      · rfl
    | ⟨1, _⟩ =>
      show (0 : Nat) = if (1 : Nat) = 1 then 0 else b.val
      rfl
  · match d with
    | ⟨0, _⟩ =>
      show a.val = if A = 1 then 0 else a.val
      split
      · have := a.isLt; omega
      · rfl

/-- The host's row maximum, the greater of -∞ and the fold from -∞, is the fold. -/
theorem host_rowMax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![]) (a : Fin A) :
    maximumf (broadcastInDim ⟨1, ![A]⟩ ![] h0 (constant (F := Ideal) ⟨0, ![]⟩ .f32 0xFF800000#32))
        (Host.reduce FloatOps.maximumf z (constant (F := Ideal) ⟨0, ![]⟩ .f32 0xFF800000#32) hR hu) (ix1 a)
      = rowMax z a := by
  show max (broadcastInDim ⟨1, ![A]⟩ ![] h0 (constant (F := Ideal) ⟨0, ![]⟩ .f32 0xFF800000#32) (ix1 a))
      (Host.reduce (max : EReal → EReal → EReal) z (constant (F := Ideal) ⟨0, ![]⟩ .f32 0xFF800000#32) hR hu (ix1 a)) = _
  rw [Cert.Lib.FoldLast.hostReduce_last2 (max : EReal → EReal → EReal) z _ hR h hu a,
    broadcastInDim_apply _ h0 _ (ix1 a) ix0 fun d => d.elim0]
  show max (Ideal.ofBits .f32 0xFF800000#32) ((Finset.univ : Finset (Fin B)).fold max (Ideal.ofBits .f32 0xFF800000#32) _) = _
  rw [Cert.LibRowReduce.ofBits_neg_inf_f32, max_eq_right bot_le]
  rfl

/-- The host's log-softmax of an array at an entry. -/
theorem host_logSoftmax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    subf (subf z (broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu)))))
        (broadcastInDim ⟨2, ![A, B]⟩ ![0, 1] h2
          (Host.log (broadcastInDim ⟨2, ![A, 1]⟩ ![0] h1
            (Host.reduceAdd
              (Host.exp (subf z (broadcastInDim ⟨2, ![A, B]⟩ ![0, 1] h2 (broadcastInDim ⟨2, ![A, 1]⟩ ![0] h1
                (maximumf (broadcastInDim ⟨1, ![A]⟩ ![] h0 (constant (F := Ideal) ⟨0, ![]⟩ .f32 0xFF800000#32))
                  (Host.reduce FloatOps.maximumf z (constant (F := Ideal) ⟨0, ![]⟩ .f32 0xFF800000#32) hR hu))))))
              (constant (F := Ideal) ⟨0, ![]⟩ .f32 0x00000000#32) hR hu)))) (ix2 a b)
      = rowLogSoftmax z (ix2 a b) := by
  have hm : ∀ k : Fin B,
      broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu))) (ix2 a k)
        = rowMax z a := fun k => (host_stat_apply _ h1 h2 a k).trans (host_rowMax_apply z hR h hu h0 a)
  rw [subf_apply, subf_apply, hm b]
  rw [broadcastInDim_apply (s := ⟨2, ![A, 1]⟩) (t := ⟨2, ![A, B]⟩) ![0, 1] h2 _ (ix2 a b) (ix2 a (0 : Fin 1)) fun d => by
    match d with
    | ⟨0, _⟩ =>
      show a.val = if A = 1 then 0 else a.val
      split
      · have := a.isLt; omega
      · rfl
    | ⟨1, _⟩ =>
      show (0 : Nat) = if (1 : Nat) = 1 then 0 else b.val
      rfl]
  simp only [Host.log]
  rw [broadcastInDim_apply (s := ⟨1, ![A]⟩) (t := ⟨2, ![A, 1]⟩) ![0] h1 _ (ix2 a (0 : Fin 1)) (ix1 a) fun d => by
    match d with
    | ⟨0, _⟩ =>
      show a.val = if A = 1 then 0 else a.val
      split
      · have := a.isLt; omega
      · rfl]
  show (z (ix2 a b) - rowMax z a) - Ideal.log (Ideal.hostReduceAdd hR _ (Ideal.ofBits .f32 0x00000000#32) (ix1 a)) = _
  rw [Ideal.hostReduceAdd_single hR h, Ideal.ofBits_zero_f32, zero_add, rowLogSoftmax_ix2]
  unfold rowLogSoftmaxAt
  refine congrArg (fun s => (z (ix2 a b) - rowMax z a) - Ideal.log s) (Finset.sum_congr rfl fun k _ => ?_)
  rw [Cert.Lib.FoldLast.lift_last2 h a k]
  show Ideal.exp (z (ix2 a k) - _) = _
  rw [hm k]

end Cert.LibLogSoftmax

end
-- ==== Proof.Spec.lean ====
/-
  The mathematical content of a two-layer graph convolution followed by a row-wise log-softmax, over matrices of
  extended reals:

      out = logsoftmax_rows (adj · relu (adj · x · W1) · W2),

  in the two bracketings the programs use. `mm` is the matrix product entry by entry (a finite sum of products),
  `relu` the entry-wise maximum with zero. The two specifications differ only in how the triple products
  adj · x · W1 and adj · h · W2 are associated.
-/
import Idealize.ShloMosaic.PureOps.Ideal
import Idealize.ShloMosaic.Lib.ValueIdx
import proofs.«170206_j10720238371545_2_alg».proof.Proof.LibLogSoftmax

noncomputable section

namespace Cert.GcnSpec

open Idealize.ShloMosaic Idealize.ShloMosaic.ValueIdx Cert.LibLogSoftmax

/-- entry (p,q) of the product of two matrices of extended reals -/
def mmAt {M K N : Nat} (A : Arr M K) (B : Arr K N) (p : Fin M) (q : Fin N) : EReal :=
  ∑ k : Fin K, A (ix2 p k) * B (ix2 k q)

/-- the product of two matrices of extended reals -/
def mm {M K N : Nat} (A : Arr M K) (B : Arr K N) : Arr M N := fun i => mmAt A B (i 0) (i 1)

theorem mm_ix2 {M K N : Nat} (A : Arr M K) (B : Arr K N) (p : Fin M) (q : Fin N) :
    mm A B (ix2 p q) = mmAt A B p q := rfl

/-- max with the f32 zero word, as the programs print relu -/
def reluE (a : EReal) : EReal := max a (Ideal.ofBits .f32 0x00000000#32)

/-- entry-wise relu -/
def relu {M N : Nat} (Z : Arr M N) : Arr M N := fun i => reluE (Z i)

theorem relu_apply {M N : Nat} (Z : Arr M N) (i : (⟨2, ![M, N]⟩ : Shape).Idx) : relu Z i = reluE (Z i) := rfl

/-- the f32 zero word is the real number 0, so relu of `a` is `max a 0` -/
theorem reluE_eq (a : EReal) : reluE a = max a 0 := by
  unfold reluE
  rw [Ideal.ofBits_zero_f32]

/-- the kernel's bracketing: adj · ((relu (adj · (x · W1))) · W2) -/
def kernelSpec (adj : Arr 8192 8192) (x : Arr 8192 256) (W1 : Arr 256 256) (W2 : Arr 256 64) : Arr 8192 64 :=
  rowLogSoftmax (mm adj (mm (relu (mm adj (mm x W1))) W2))

/-- the reference's bracketing: (adj · relu ((adj · x) · W1)) · W2 -/
def refSpec (adj : Arr 8192 8192) (x : Arr 8192 256) (W1 : Arr 256 256) (W2 : Arr 256 64) : Arr 8192 64 :=
  rowLogSoftmax (mm (mm adj (relu (mm (mm adj x) W1))) W2)

end Cert.GcnSpec

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.KI.Boundary.lean ====
/-
  What the program's buffers hold at the boundaries between its four segments, at the ideal instance, in terms of
  the launch memory: the adjacency matrix and the second weight matrix reach every boundary unchanged; the first
  region's right operand is the host product x·W₁, the second region's the host product of the first region's result
  with W₂; a host product of two matrices is, entry by entry, the sum over the shared axis.
-/
import proofs.«170206_j10720238371545_2_alg».proof.Proof.KI.FrameAll
import proofs.«170206_j10720238371545_2_alg».proof.Proof.Spec
import proofs.«170206_j10720238371545_2_alg».proof.Proof.LibDotSum
import Idealize.ShloMosaic.Lib.StableHlo.Run
import Idealize.ShloMosaic.PureOps.Ideal.Laws

noncomputable section

namespace Cert.KernelIdeal.Br

open Cert.KernelIdeal Cert.KernelIdeal.Gen Cert.KernelIdeal.Fr Cert.GcnSpec Cert.LibLogSoftmax
open Idealize.ShloMosaic Idealize.ShloMosaic.TcCoe Idealize.ShloMosaic.ValueIdx Idealize.SL.Sem

/-! ## The two host products, entry by entry -/

theorem dot0_eq (A : FVec Ideal S8192x256 .f32) (B : FVec Ideal S256x256 .f32) :
    Host.dotGeneral (F := Ideal) dot_S8192x256_S256x256_S8192x256_1_0_0_1_n_n none A B = mm (M := 8192) (K := 256) (N := 256) A B := by
  funext i
  obtain ⟨p, q, rfl⟩ : ∃ (p : Fin 8192) (q : Fin 256), i = ix2 p q := ⟨i 0, i 1, eq_ix2 i⟩
  rw [mm_ix2]
  refine (Ideal.dotGeneral_apply dot_S8192x256_S256x256_S8192x256_1_0_0_1_n_n none .single A B (ix2 p q)).trans ?_
  exact Cert.LibDotSum.sum_dot (M := 8192) (K := 256) (N := 256) dot_S8192x256_S256x256_S8192x256_1_0_0_1_n_n rfl rfl
    (fun _ _ => rfl) (fun _ _ => rfl) (fun _ _ => rfl) (fun _ _ => rfl) A B p q

theorem dot1_eq (A : FVec Ideal S8192x256 .f32) (B : FVec Ideal S256x64 .f32) :
    Host.dotGeneral (F := Ideal) dot_S8192x256_S256x64_S8192x64_1_0_0_1_n_n none A B = mm (M := 8192) (K := 256) (N := 64) A B := by
  funext i
  obtain ⟨p, q, rfl⟩ : ∃ (p : Fin 8192) (q : Fin 64), i = ix2 p q := ⟨i 0, i 1, eq_ix2 i⟩
  rw [mm_ix2]
  refine (Ideal.dotGeneral_apply dot_S8192x256_S256x64_S8192x64_1_0_0_1_n_n none .single A B (ix2 p q)).trans ?_
  exact Cert.LibDotSum.sum_dot (M := 8192) (K := 256) (N := 64) dot_S8192x256_S256x64_S8192x64_1_0_0_1_n_n rfl rfl
    (fun _ _ => rfl) (fun _ _ => rfl) (fun _ _ => rfl) (fun _ _ => rfl) A B p q

variable (m : (ℓ : Loc nD τ sig) → Buf (Elt Ideal) ℓ) (ρ : Dev nD → PrngReg)

/-! ## The first region's entry -/

theorem Wb1_arg0 (c : Dev nD) : Wb1 m ρ c (Proc.devRef .tc main_arg0) = m ((c : Thread nD τ).loc main_arg0) :=
  (StableHlo.after_of_writes_sub hostOps0 _ hostOps0_writes (r := main_arg0) (by decide)).trans rfl
theorem Wb1_arg3 (c : Dev nD) : Wb1 m ρ c (Proc.devRef .tc main_arg3) = m ((c : Thread nD τ).loc main_arg3) :=
  (StableHlo.after_of_writes_sub hostOps0 _ hostOps0_writes (r := main_arg3) (by decide)).trans rfl
/-- The first region's right operand is the host product x·W₁. -/
theorem Wb1_v0 (c : Dev nD) : Wb1 m ρ c (Proc.devRef .tc main_v0)
    = Host.dotGeneral (F := Ideal) (φ₁ := .f32) (φ₂ := .f32) dot_S8192x256_S256x256_S8192x256_1_0_0_1_n_n none (m ((c : Thread nD τ).loc main_arg1)) (m ((c : Thread nD τ).loc main_arg2)) := by
  show StableHlo.after hostOps0 (Wb0 m ρ c) (Proc.devRef .tc main_v0) = _
  after_results <;> rfl

/-! ## The first region's exit and the second region's entry -/

theorem Wb2_arg0 (c : Dev nD) : Wb2 m ρ c (Proc.devRef .tc main_arg0) = m ((c : Thread nD τ).loc main_arg0) :=
  ((Wb2_arr m ρ c 0).trans (((dat0 (Vb1 m ρ) c).arrAt_in 0 rfl _).trans (A_eq0 (Vb1 m ρ) c 0))).trans (Wb1_arg0 m ρ c)
theorem Wb2_arg3 (c : Dev nD) : Wb2 m ρ c (Proc.devRef .tc main_arg3) = m ((c : Thread nD τ).loc main_arg3) :=
  (Wb2_of_ne m ρ c main_arg3 (by decide)).trans (Wb1_arg3 m ρ c)
/-- The first region's result array at its exit: the fold of its output blocks. -/
theorem Wb2_v1 (c : Dev nD) : Wb2 m ρ c (Proc.devRef .tc main_v1) = (dat0 (Vb1 m ρ) c).arrAt 2 cfg0.N :=
  Wb2_arr m ρ c 2
theorem Wb3_arg0 (c : Dev nD) : Wb3 m ρ c (Proc.devRef .tc main_arg0) = m ((c : Thread nD τ).loc main_arg0) :=
  (StableHlo.after_of_writes_sub hostOps1 _ hostOps1_writes (r := main_arg0) (by decide)).trans (Wb2_arg0 m ρ c)
/-- The second region's right operand is the host product of the first region's result with W₂. -/
theorem Wb3_v2 (c : Dev nD) : Wb3 m ρ c (Proc.devRef .tc main_v2)
    = Host.dotGeneral (F := Ideal) (φ₁ := .f32) (φ₂ := .f32) dot_S8192x256_S256x64_S8192x64_1_0_0_1_n_n none (Wb2 m ρ c (Proc.devRef .tc main_v1)) (Wb2 m ρ c (Proc.devRef .tc main_arg3)) := by
  show StableHlo.after hostOps1 (Wb2 m ρ c) (Proc.devRef .tc main_v2) = _
  after_results <;> rfl
/-- The program's result array at the end: the fold of the second region's output blocks. -/
theorem Wb4_v3 (c : Dev nD) : Wb4 m ρ c (Proc.devRef .tc main_v3) = (dat1 (Vb3 m ρ) c).arrAt 2 cfg1.N :=
  Wb4_arr m ρ c 2

end Cert.KernelIdeal.Br

end
-- ==== Proof.KI.Bridge.lean ====
/-
  The program's result at the ideal instance, from the two regions' results: if the first region leaves
  relu(adj · B) in its output array for any entry contents with right operand B, and the second leaves the row-wise
  log-softmax of adj · B', then the program ends with its result array at
  logsoftmax(adj · (relu(adj · (x · W₁)) · W₂)) — the boundaries' contents substituted one after the other.
-/
import proofs.«170206_j10720238371545_2_alg».proof.Proof.KI.Boundary

noncomputable section

namespace Cert.KernelIdeal.Br

open Cert.KernelIdeal Cert.KernelIdeal.Gen Cert.KernelIdeal.Fr Cert.GcnSpec Cert.LibLogSoftmax
open Idealize.ShloMosaic Idealize.ShloMosaic.TcCoe Idealize.ShloMosaic.ValueIdx Idealize.SL.Sem

variable (m : (ℓ : Loc nD τ sig) → Buf (Elt Ideal) ℓ) (ρ : Dev nD → PrngReg)

/-- What a region's two facts have to say, for every entry contents. -/
def Final0 : Prop := ∀ (V : (c : Dev nD) → (b : Ref sig .tc) → Buf (Elt Ideal) ((c : Thread nD τ).loc b)) (c : Dev nD),
  (dat0 (F := Ideal) V c).arrAt 2 cfg0.N = relu (M := 8192) (N := 256) (mm (M := 8192) (K := 8192) (N := 256) (V c main_arg0) (V c main_v0))
def Final1 : Prop := ∀ (V : (c : Dev nD) → (b : Ref sig .tc) → Buf (Elt Ideal) ((c : Thread nD τ).loc b)) (c : Dev nD),
  (dat1 (F := Ideal) V c).arrAt 2 cfg1.N = rowLogSoftmax (M := 8192) (N := 64) (mm (M := 8192) (K := 8192) (N := 64) (V c main_arg0) (V c main_v2))

theorem kernel_value_of (hf0 : Final0) (hf1 : Final1) (c : Dev nD) :
    Wb4 m ρ c (Proc.devRef .tc main_v3)
      = kernelSpec (m ((c : Thread nD τ).loc main_arg0)) (m ((c : Thread nD τ).loc main_arg1)) (m ((c : Thread nD τ).loc main_arg2)) (m ((c : Thread nD τ).loc main_arg3)) := by
  have e1 : Vb1 m ρ c main_v0 = mm (M := 8192) (K := 256) (N := 256) (m ((c : Thread nD τ).loc main_arg1)) (m ((c : Thread nD τ).loc main_arg2)) :=
    (Wb1_v0 m ρ c).trans (dot0_eq _ _)
  have e2 : Wb2 m ρ c (Proc.devRef .tc main_v1)
      = relu (M := 8192) (N := 256) (mm (M := 8192) (K := 8192) (N := 256) (m ((c : Thread nD τ).loc main_arg0)) (mm (M := 8192) (K := 256) (N := 256) (m ((c : Thread nD τ).loc main_arg1)) (m ((c : Thread nD τ).loc main_arg2)))) := by
    refine (Wb2_v1 m ρ c).trans ((hf0 (Vb1 m ρ) c).trans ?_)
    rw [e1, show Vb1 m ρ c main_arg0 = m ((c : Thread nD τ).loc main_arg0) from Wb1_arg0 m ρ c]
  have e3 : Vb3 m ρ c main_v2 = mm (M := 8192) (K := 256) (N := 64) (Wb2 m ρ c (Proc.devRef .tc main_v1)) (m ((c : Thread nD τ).loc main_arg3)) := by
    refine (Wb3_v2 m ρ c).trans ((dot1_eq _ _).trans ?_)
    rw [Wb2_arg3]
  refine (Wb4_v3 m ρ c).trans ((hf1 (Vb3 m ρ) c).trans ?_)
  rw [e3, e2, show Vb3 m ρ c main_arg0 = m ((c : Thread nD τ).loc main_arg0) from Wb3_arg0 m ρ c]
  rfl

end Cert.KernelIdeal.Br

end
-- ==== Proof.KernelPayload0.lean ====
/-
  The arithmetic of the first kernel's three stored values, read at one entry, with floats the extended reals and
  every operation exact.

  The accumulator block starts as the zero block; each step adds to it the product of a 2048 × 1024 block of the
  left factor with a 1024 × 256 block of the right factor (rounding the factors to a narrower format is the identity
  on extended reals, and a reshape to the same shape changes nothing), so at entry (p, q) the new value is the old one
  plus the sum over k of A(p,k) · B(k,q); the last step stores the greater of the accumulator and zero.
-/
import proofs.«170206_j10720238371545_2_alg».proof.Proof.Gen.KernelIdeal.Skeleton
import proofs.«170206_j10720238371545_2_alg».proof.Proof.LibDotSum
import proofs.«170206_j10720238371545_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelSide

open Cert.KernelIdeal Cert.KernelIdeal.Gen Idealize.ShloMosaic Idealize.ShloMosaic.ValueIdx

/-- The first stored value is the zero block. -/
theorem k0_pay1_apply (p : Fin 2048) (q : Fin 256) : k0_pay1 (F := Ideal) (ix2 p q) = 0 := by
  unfold k0_pay1
  rw [shapeCast_self, broadcast_apply]
  exact Ideal.ofBits_zero_f32

/-- The product of a 2048 × 1024 block with a 1024 × 256 block into the zero block, at an entry. -/
theorem k0_dot_apply (a : FVec Ideal S2048x1024 .bf16) (b : FVec Ideal S1024x256 .bf16) (p : Fin 2048) (q : Fin 256) :
    matmul dot_S2048x1024_S1024x256_S2048x256_1_0_0_1_n_n none a b (constant (F := Ideal) S2048x256 .f32 0x00000000#32) (ix2 p q)
      = ∑ k : Fin 1024, a (ix2 p k) * b (ix2 k q) := by
  refine (Ideal.matmul_constant_zero_apply dot_S2048x1024_S1024x256_S2048x256_1_0_0_1_n_n none a b (ix2 p q)).trans ?_
  exact Cert.LibDotSum.sum_dot (M := 2048) (K := 1024) (N := 256) dot_S2048x1024_S1024x256_S2048x256_1_0_0_1_n_n rfl rfl
    (fun _ _ => rfl) (fun _ _ => rfl) (fun _ _ => rfl) (fun _ _ => rfl) a b p q

/-- One accumulation step at an entry: the old value plus the block product. -/
theorem k0_pay2_apply (v3 : Vec Ideal S2048x1024 .f32) (v8 : Vec Ideal S1024x256 .f32) (v11 : Vec Ideal S2048x256 .f32)
    (p : Fin 2048) (q : Fin 256) :
    k0_pay2 v3 v8 v11 (ix2 p q) = v11 (ix2 p q) + ∑ k : Fin 1024, v3 (ix2 p k) * v8 (ix2 k q) := by
  unfold k0_pay2
  rw [shapeCast_self, addf_apply, k0_dot_apply, shapeCast_self]
  rfl

/-- The last step stores the greater of the accumulator and zero. -/
theorem k0_pay3_apply (v20 : Vec Ideal S2048x256 .f32) (p : Fin 2048) (q : Fin 256) :
    k0_pay3 v20 (ix2 p q) = Cert.GcnSpec.reluE (v20 (ix2 p q)) := by
  unfold k0_pay3
  rw [maximumf_apply, broadcast_apply]
  rfl

end Cert.KernelSide

end
-- ==== Proof.LibTileSum.lean ====
/-
  A sum over an axis of extent T·B taken tile by tile: the sum over all n < T·B of f n is the sum over the tiles t < T
  of the sum over the positions b < B inside the tile of f (t·B + b). A kernel that walks an axis in blocks and
  accumulates per block computes the right side; a whole-array reduction computes the left. In any commutative
  monoid (at the extended reals no finiteness is needed: only the order of addition changes).
-/
import Mathlib.Algebra.BigOperators.Fin
import Mathlib.Logic.Equiv.Fin.Basic

namespace Cert.LibTileSum

open Finset

/-- Position b of tile t on an axis of T tiles of B positions. -/
def tileIdx {T B : Nat} (t : Fin T) (b : Fin B) : Fin (T * B) :=
  ⟨t.val * B + b.val, by
    have ht := t.isLt; have hb := b.isLt
    have h0 : (t.val + 1) * B = t.val * B + B := Nat.succ_mul t.val B
    have h1 : t.val * B + b.val < (t.val + 1) * B := by rw [h0]; omega
    exact lt_of_lt_of_le h1 (Nat.mul_le_mul_right B ht)⟩

@[simp] theorem tileIdx_val {T B : Nat} (t : Fin T) (b : Fin B) : (tileIdx t b).val = t.val * B + b.val := rfl

/-- The sum over the whole axis is the sum over tiles of the sums inside each tile. -/
theorem sum_tiles {M : Type*} [AddCommMonoid M] {T B : Nat} (f : Fin (T * B) → M) :
    ∑ n : Fin (T * B), f n = ∑ t : Fin T, ∑ b : Fin B, f (tileIdx t b) := by
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm B t.val, Nat.add_comm]

end Cert.LibTileSum
-- ==== Proof.BlockSum.lean ====
/-
  A matrix product whose shared axis of extent 8192 is walked in 8 blocks of 1024, accumulating block by block, as one sum.

  For a row r of A and a column q of B, block kk contributes the sum over the 1024 positions j inside it of
  A(r, kk·1024 + j) · B(kk·1024 + j, q). Starting from zero and adding the blocks 0, 1, …, 7 in this order, each on the
  right of what has been accumulated, gives after 8 blocks the full sum over the 8192 positions: the entry (r, q) of
  the product. Addition of extended reals is commutative and associative, so only the grouping of the terms changes and
  nothing needs to be finite.
-/
import proofs.«170206_j10720238371545_2_alg».proof.Proof.Spec
import proofs.«170206_j10720238371545_2_alg».proof.Proof.LibTileSum

noncomputable section

namespace Cert.KernelSide

open Idealize.ShloMosaic Idealize.ShloMosaic.ValueIdx Cert.LibLogSoftmax

/-- The contribution of block kk of the shared axis to entry (r, q) of A · B. -/
def blockTerm {N : Nat} (A : Arr 8192 8192) (B : Arr 8192 N) (r : Fin 8192) (q : Fin N) (kk : Fin 8) : EReal :=
  ∑ j : Fin 1024, A (ix2 r ⟨kk.val * 1024 + j.val, by omega⟩) * B (ix2 ⟨kk.val * 1024 + j.val, by omega⟩ q)

/-- The accumulator after the first n blocks: zero, then each block added on the right. -/
def partialSum {N : Nat} (A : Arr 8192 8192) (B : Arr 8192 N) (r : Fin 8192) (q : Fin N) : (n : Nat) → n ≤ 8 → EReal
  | 0, _ => 0
  | n + 1, h => partialSum A B r q n (Nat.le_of_succ_le h) + blockTerm A B r q ⟨n, h⟩

theorem partialSum_zero {N : Nat} (A : Arr 8192 8192) (B : Arr 8192 N) (r : Fin 8192) (q : Fin N) (h : 0 ≤ 8) :
    partialSum A B r q 0 h = 0 := rfl

theorem partialSum_succ {N : Nat} (A : Arr 8192 8192) (B : Arr 8192 N) (r : Fin 8192) (q : Fin N) (n : Nat) (h : n + 1 ≤ 8) :
    partialSum A B r q (n + 1) h = partialSum A B r q n (Nat.le_of_succ_le h) + blockTerm A B r q ⟨n, h⟩ := rfl

/-- After the first block the accumulator is that block: zero plus it. -/
theorem partialSum_one {N : Nat} (A : Arr 8192 8192) (B : Arr 8192 N) (r : Fin 8192) (q : Fin N) (h : 1 ≤ 8) :
    partialSum A B r q 1 h = blockTerm A B r q ⟨0, h⟩ := by
  rw [partialSum_succ, partialSum_zero, zero_add]

/-- The accumulator after n blocks is the sum of the first n block terms. -/
theorem partialSum_eq_sum {N : Nat} (A : Arr 8192 8192) (B : Arr 8192 N) (r : Fin 8192) (q : Fin N) :
    ∀ (n : Nat) (h : n ≤ 8),
      partialSum A B r q n h = ∑ kk : Fin n, blockTerm A B r q ⟨kk.val, lt_of_lt_of_le kk.isLt h⟩
  | 0, _ => by
    rw [partialSum_zero]
    exact (Finset.sum_of_isEmpty _).symm
  | n + 1, h => by
    rw [partialSum_succ, partialSum_eq_sum A B r q n (Nat.le_of_succ_le h), Fin.sum_univ_castSucc]
    rfl

/-- After all 8 blocks the accumulator is the entry of the product. -/
theorem partialSum_eight {N : Nat} (A : Arr 8192 8192) (B : Arr 8192 N) (r : Fin 8192) (q : Fin N) :
    partialSum A B r q 8 (le_refl _) = Cert.GcnSpec.mmAt A B r q := by
  have h8 : 8 * 1024 = 8192 := by norm_num
  rw [partialSum_eq_sum]
  unfold Cert.GcnSpec.mmAt
  calc ∑ kk : Fin 8, blockTerm A B r q ⟨kk.val, lt_of_lt_of_le kk.isLt (le_refl 8)⟩
      = ∑ t : Fin 8, ∑ b : Fin 1024,
          (fun n : Fin (8 * 1024) => A (ix2 r (Fin.cast h8 n)) * B (ix2 (Fin.cast h8 n) q)) (Cert.LibTileSum.tileIdx t b) := rfl
    _ = ∑ n : Fin (8 * 1024), A (ix2 r (Fin.cast h8 n)) * B (ix2 (Fin.cast h8 n) q) :=
        (Cert.LibTileSum.sum_tiles (T := 8) (B := 1024)
          (fun n : Fin (8 * 1024) => A (ix2 r (Fin.cast h8 n)) * B (ix2 (Fin.cast h8 n) q))).symm
    _ = ∑ k : Fin 8192, A (ix2 r k) * B (ix2 k q) :=
        Fintype.sum_equiv (finCongr h8) _ _ (fun n => rfl)

end Cert.KernelSide

end
-- ==== Proof.KI.Value0a.lean ====
/-
  Region 0, the value of what each case of the body leaves: the accumulator after a first, a middle and a last column
  block, and the output's buffer after a last one, as the stored values' arithmetic applied to the blocks the body
  loads. Each case ends with one store that covers its buffer, so the buffer reads back that store's value; the loads
  read whole buffers, except the right factor's, of which the body loads the 1024 rows of the current column block.
-/
import proofs.«170206_j10720238371545_2_alg».proof.Proof.KI.Frame0
import proofs.«170206_j10720238371545_2_alg».proof.Proof.KernelPayload0
import proofs.«170206_j10720238371545_2_alg».proof.Proof.BlockSum
import proofs.«170206_j10720238371545_2_alg».proof.Proof.Spec
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

theorem hz : (![0, 0] : Fin 2 → Nat) = fun _ => 0 := funext fun a => by fin_cases a <;> rfl

/-! ## What each case leaves, as the stored values' arithmetic -/

/-- The 1024-row block of the right operand the body loads at a grid point. -/
abbrev rblk0 (i : grid0.Coords) (x1 : Vec F S8192x256 .f32) : Vec F S1024x256 .f32 :=
  View.ld x1 (Rect.unit (s := S8192x256) (k0_off1 i) S1024x256.size (k0_off1_inb i))

/-- A middle column block: the accumulator plus the block product. -/
theorem sout0_B_eq (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : ¬cond0_1 i)
    (x0 : Vec F S2048x1024 .f32) (x1 : Vec F S8192x256 .f32) (xs : Vec F S2048x256 .f32) :
    sout0_B c i arg2 harg2 arg3 harg3 arg4 harg4 arg5 harg5 hc0 hc1 x0 x1 xs = k0_pay2 x0 (rblk0 i x1) xs := by
  unfold sout0_B
  rw [View.read_writes_eq_canon _ _ _ (scover0_B c i arg2 harg2 arg3 harg3 arg4 harg4 arg5 harg5 hc0 hc1 x0 x1 xs)]
  unfold kernelRun0_B
  dsimp only
  rw [View.canon_unit_zero hz]
  simp only [View.readAt_eq_ld, harg2.read_unread, harg3.read_unread, harg5.read_unread,
    View.ld_unit_zero (S := S2048x1024) hz, View.ld_unit_zero (S := S2048x256) hz]

/-- The first column block: the zero block plus the block product. -/
theorem sout0_A_eq (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : cond0_0 i) (hc1 : ¬cond0_1 i)
    (x0 : Vec F S2048x1024 .f32) (x1 : Vec F S8192x256 .f32) :
    sout0_A c i arg2 harg2 arg3 harg3 arg4 harg4 arg5 harg5 hc0 hc1 x0 x1 = k0_pay2 x0 (rblk0 i x1) (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S2048x256) hz, View.readCov_unit_zero (S := S2048x256) _ hz]
  simp only [View.readAt_eq_ld, harg2.read_unread, harg3.read_unread,
    View.ld_unit_zero (S := S2048x1024) hz, View.ld_unit_zero (S := S2048x256) hz]
  rfl

/-- The last column block, the accumulator: the accumulator plus the block product. -/
theorem sout0_C_eq (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) :
    sout0_C c i arg2 harg2 arg3 harg3 arg4 harg4 arg5 harg5 hc0 hc1 x0 x1 xs = k0_pay2 x0 (rblk0 i x1) xs := by
  unfold sout0_C
  rw [View.read_writes_eq_canon _ _ _ (scover0_C c i arg2 harg2 arg3 harg3 arg4 harg4 arg5 harg5 hc0 hc1 x0 x1 xs)]
  unfold kernelRun0_C
  dsimp only
  sl_unfold_words
  rw [View.canon_unit_zero hz]
  simp only [View.readAt_eq_ld, harg2.read_unread, harg3.read_unread, harg5.read_unread,
    View.ld_unit_zero (S := S2048x1024) hz, View.ld_unit_zero (S := S2048x256) hz]
  rfl

/-- The last column block, the output's buffer: the activation of the new accumulator. -/
theorem out0_C_eq (c : Dev nD) (i : grid0.Coords) (arg2 : Memref sig .tc .vmem S2048x1024 .f32) (harg2 : arg2.IsWhole) (arg3 : Memref sig .tc .vmem S8192x256 .f32) (harg3 : arg3.IsWhole) (arg4 : Memref sig .tc .vmem S2048x256 .f32) (harg4 : arg4.IsWhole) (arg5 : Memref sig .tc .vmem S2048x256 .f32) (harg5 : arg5.IsWhole) (hc0 : ¬cond0_0 i) (hc1 : cond0_1 i)
    (x0 : Vec F S2048x1024 .f32) (x1 : Vec F S8192x256 .f32) (xs : Vec F S2048x256 .f32) :
    out0_C c i arg2 harg2 arg3 harg3 arg4 harg4 arg5 harg5 hc0 hc1 x0 x1 xs = k0_pay3 (k0_pay2 x0 (rblk0 i x1) xs) := by
  unfold out0_C
  rw [View.read_writes_eq_canon _ _ _ (cover0_C c i arg2 harg2 arg3 harg3 arg4 harg4 arg5 harg5 hc0 hc1 x0 x1 xs)]
  unfold kernelRun0_C
  dsimp only
  sl_unfold_words
  rw [View.canon_unit_zero hz, View.readCov_unit_zero (S := S2048x256) _ hz]
  simp only [View.readAt_eq_ld, harg2.read_unread, harg3.read_unread, harg5.read_unread,
    View.ld_unit_zero (S := S2048x1024) hz, View.ld_unit_zero (S := S2048x256) hz]
  rfl

end Cert.KernelIdeal.Val
end
-- ==== Proof.KI.Value0b.lean ====
/-
  Region 0, the blocks the body reads at explicit coordinates, and the accumulation over the grid.

  Grid point t has row tile t / 8 and column block t % 8. The left factor's tile at t holds rows (t/8)·2048 + p and
  columns (t%8)·1024 + k of the left factor; the right factor's buffer holds the whole right factor, of which the
  body loads rows (t%8)·1024 + k. So each step adds to the accumulator, at (p, q), the contribution of column block
  t % 8 to entry ((t/8)·2048 + p, q) of the product, and after the step at column block m the accumulator holds the sum
  of the contributions of blocks 0 … m; after the last block that is the entry of the product, and the output's buffer
  holds the greater of it and zero.
-/
import proofs.«170206_j10720238371545_2_alg».proof.Proof.KI.Value0a

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-! ## The blocks the body reads, at explicit coordinates -/

open Cert.LibLogSoftmax Cert.GcnSpec Cert.KernelSide

theorem lt32 (t : Fin cfg0.N) : t.val < 32 := lt_of_lt_of_eq t.isLt N_0

/-- Row p of row tile n / 8. -/
def rowAt (n : ℕ) (hn : n < 32) (p : Fin 2048) : Fin 8192 := ⟨(n / 8) * 2048 + p.val, by omega⟩
/-- Position k of column block n % 8. -/
def colAt (n : ℕ) (k : Fin 1024) : Fin 8192 := ⟨(n % 8) * 1024 + k.val, by omega⟩

/-- The grid point's column-block coordinate and the windows' block indices, decided over the grid. -/
theorem coord0_1 : ∀ t : Fin cfg0.N, ((grid0.coords t) 1).val = t.val % 8 :=
  (by decide +kernel : ∀ t : Fin grid0.N, ((grid0.coords t) 1).val = t.val % 8)

theorem idx0 : ∀ t : Fin cfg0.N, win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = t.val / 8 ∧ win0_2.index t (1 : Fin 2) = 0 :=
  (by decide +kernel : ∀ t : Fin grid0.N, _)

variable (V : (c : Dev nD) → (b : Ref sig .tc) → Buf (Elt F) ((c : Thread nD τ).loc b))

/-- The left factor as the region finds it. -/
abbrev adj0 (c : Dev nD) : S8192x8192.Idx → Elt F .f32 := V c main_arg0
/-- The right factor as the region finds it. -/
abbrev rhs0 (c : Dev nD) : S8192x256.Idx → Elt F .f32 := V c main_v0

/-- The left factor's tile at a grid point, at an entry. -/
theorem iblk0_0_apply (c : Dev nD) (t : Fin cfg0.N) (p : Fin 2048) (k : Fin 1024) :
    (iblk0 V c 0 t : Vec F S2048x1024 .f32) (ix2 p k) = adj0 V c (ix2 (rowAt t.val (lt32 t) p) (colAt t.val k)) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 2048 + 1 * p.val = (t.val / 8) * 2048 + p.val; rw [e0]; omega
  | ⟨1, _⟩ => show win0_0.index t (1 : Fin 2) * 1024 + 1 * k.val = (t.val % 8) * 1024 + k.val; rw [e1]; omega

/-- The right factor's staging buffer holds the whole factor at every grid point. -/
theorem iblk0_1_eq (c : Dev nD) (t : Fin cfg0.N) : (iblk0 V c 1 t : Vec F S8192x256 .f32) = rhs0 V c := by
  obtain ⟨-, -, e2, e3, -⟩ := idx0 t
  funext j
  unfold iblk0
  rw [View.read_apply]
  show V c main_v0 _ = V c main_v0 j
  congr 1
  funext a
  apply Fin.ext
  match a with
  | ⟨0, _⟩ => show win0_1.index t (0 : Fin 2) * 8192 + 1 * (j 0).val = (j 0).val; rw [e2]; omega
  | ⟨1, _⟩ => show win0_1.index t (1 : Fin 2) * 256 + 1 * (j 1).val = (j 1).val; rw [e3]; omega

/-- The 1024-row block of the right factor loaded at a grid point, at an entry. -/
theorem rblk0_apply (t : Fin cfg0.N) (x1 : Vec F S8192x256 .f32) (k : Fin 1024) (q : Fin 256) :
    rblk0 (grid0.coords t) x1 (ix2 k q) = x1 (ix2 (colAt t.val k) q) := by
  show x1 ((Rect.unit (s := S8192x256) (k0_off1 (grid0.coords t)) S1024x256.size (k0_off1_inb (grid0.coords t))).emb (ix2 k q)) = _
  congr 1
  funext a
  apply Fin.ext
  match a with
  | ⟨0, _⟩ =>
    show k0_off1 (grid0.coords t) 0 + 1 * k.val = (t.val % 8) * 1024 + k.val
    rw [k0_off1_eq]
    show 1024 * ((grid0.coords t) 1).val + 1 * k.val = _
    rw [coord0_1 t]; omega
  | ⟨1, _⟩ =>
    show k0_off1 (grid0.coords t) 1 + 1 * q.val = q.val
    rw [k0_off1_eq]
    show 0 + 1 * q.val = q.val
    omega

/-! ## The accumulation -/

section Accumulation

variable (W : (c : Dev nD) → (b : Ref sig .tc) → Buf (Elt Ideal) ((c : Thread nD τ).loc b))

/-- One step at a grid point, at an entry: the old accumulator plus the column block's contribution. -/
theorem step_apply (c : Dev nD) (t : Fin cfg0.N) (xs : Vec Ideal S2048x256 .f32) (p : Fin 2048) (q : Fin 256) :
    k0_pay2 (iblk0 W c 0 t) (rblk0 (grid0.coords t) (iblk0 W c 1 t)) xs (ix2 p q)
      = xs (ix2 p q) + blockTerm (adj0 W c) (rhs0 W c) (rowAt t.val (lt32 t) p) q ⟨t.val % 8, Nat.mod_lt _ (by norm_num)⟩ := by
  refine (k0_pay2_apply _ _ xs p q).trans ?_
  unfold blockTerm
  refine congrArg (xs (ix2 p q) + ·) (Finset.sum_congr rfl fun k _ => ?_)
  rw [iblk0_0_apply W c t p k, rblk0_apply t _ k q, iblk0_1_eq W c t]
  rfl

theorem partialSum_cast {N : Nat} (A : Arr 8192 8192) (B : Arr 8192 N) (q : Fin N) {r r' : Fin 8192} (hr : r = r')
    {m m' : ℕ} (hm : m = m') (h : m ≤ 8) (h' : m' ≤ 8) : partialSum A B r q m h = partialSum A B r' q m' h' := by
  subst hr; subst hm; rfl

theorem partialSum_of_eq_zero {N : Nat} (A : Arr 8192 8192) (B : Arr 8192 N) (r : Fin 8192) (q : Fin N) (m : ℕ) (h : m ≤ 8)
    (h0 : m = 0) : partialSum A B r q m h = 0 := by
  subst h0; rfl

/-- After the step at grid point t the accumulator holds, at (p, q), the contributions of column blocks 0 … t % 8 to
    entry ((t/8)·2048 + p, q) of the product. -/
theorem acc_inv (c : Dev nD) : ∀ (n : ℕ) (t : Fin cfg0.N), t.val = n → ∀ (p : Fin 2048) (q : Fin 256),
    ((outsAt0 W c t.val t.isLt).2 : Vec Ideal S2048x256 .f32) (ix2 p q)
      = partialSum (adj0 W c) (rhs0 W c) (rowAt t.val (lt32 t) p) q (t.val % 8 + 1) (Nat.succ_le_of_lt (Nat.mod_lt _ (by norm_num))) := by
  intro n
  induction n using Nat.strong_induction_on with
  | _ n ih =>
    intro t ht p q
    by_cases h0 : t.val % 8 = 0
    · have h1 : ¬t.val % 8 = 7 := by omega
      rw [outsAt0_A W c t h0 h1]
      dsimp only
      rw [sout0_A_eq]
      refine (step_apply W c t _ p q).trans ?_
      rw [k0_pay1_apply, partialSum_succ, partialSum_of_eq_zero _ _ _ _ _ _ h0]
    · have hz : t.val ≠ 0 := fun e => h0 (by rw [e])
      have hlt : t.val - 1 < cfg0.N := Nat.lt_of_le_of_lt (Nat.sub_le _ _) t.isLt
      have ih' := ih (t.val - 1) (by omega) ⟨t.val - 1, hlt⟩ rfl p q
      have hN := lt32 t
      have hprev : ((outsAt0 W c (t.val - 1) hlt).2 : Vec Ideal S2048x256 .f32) (ix2 p q)
          = partialSum (adj0 W c) (rhs0 W c) (rowAt t.val (lt32 t) p) q (t.val % 8) (Nat.le_of_lt (Nat.mod_lt _ (by norm_num))) :=
        ih'.trans (partialSum_cast _ _ q (Fin.ext (by show ((t.val - 1) / 8) * 2048 + p.val = (t.val / 8) * 2048 + p.val; omega))
          (by show (t.val - 1) % 8 + 1 = t.val % 8; omega) _ _)
      by_cases h1 : t.val % 8 = 7
      · rw [outsAt0_C W c t h0 h1]
        dsimp only
        rw [sout0_C_eq]
        refine (step_apply W c t _ p q).trans ?_
        rw [partialSum_succ, hprev]
      · rw [outsAt0_B W c t h0 h1]
        dsimp only
        rw [sout0_B_eq]
        refine (step_apply W c t _ p q).trans ?_
        rw [partialSum_succ, hprev]

/-- At the last column block the output's buffer holds the activation of the product's entries. -/
theorem out_inv (c : Dev nD) (t : Fin cfg0.N) (h7 : t.val % 8 = 7) (p : Fin 2048) (q : Fin 256) :
    ((outsAt0 W c t.val t.isLt).1 : Vec Ideal S2048x256 .f32) (ix2 p q)
      = reluE (mmAt (adj0 W c) (rhs0 W c) (rowAt t.val (lt32 t) p) q) := by
  have h0 : ¬t.val % 8 = 0 := by omega
  have e : (outsAt0 W c t.val t.isLt).1 = k0_pay3 ((outsAt0 W c t.val t.isLt).2) := by
    rw [outsAt0_C W c t h0 h7]
    dsimp only
    rw [out0_C_eq, sout0_C_eq]
  rw [e]
  refine (k0_pay3_apply _ p q).trans ?_
  rw [acc_inv W c t.val t rfl p q]
  exact congrArg reluE ((partialSum_cast _ _ q rfl (by omega) _ _).trans (partialSum_eight _ _ _ q))

end Accumulation

end Cert.KernelIdeal.Val
end
-- ==== Proof.KI.Value0.lean ====
/-
  Region 0, the result: the output array after the region is the activation of the product of the two factors as the
  region finds them. The points at the last column block write back their row tile's block of it, and those blocks
  cover the array: row r is in the block of the last point of row tile r / 2048.
-/
import proofs.«170206_j10720238371545_2_alg».proof.Proof.KI.Value0b

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open Cert.LibLogSoftmax Cert.GcnSpec Cert.KernelSide

/-! ## The result array -/

section Result

variable (W : (c : Dev nD) → (b : Ref sig .tc) → Buf (Elt Ideal) ((c : Thread nD τ).loc b))

/-- What the output array ends holding: the activation of the product. -/
abbrev G0 (c : Dev nD) : Arr 8192 256 := relu (mm (adj0 W c) (rhs0 W c))

/-- What a last-column-block point writes back is its block of the activation of the product. -/
theorem flushed0_eq (c : Dev nD) (t : Fin cfg0.N) (hf : (cfg0.win 2).flush t = true) :
    (dat0 W c).flushed 2 t = ((cfg0.win 2).blk t).view.read (Elt Ideal) (G0 W c) := by
  have h7 : t.val % 8 = 7 := (flush0_2 t).mp hf
  obtain ⟨-, -, -, -, e4, e5⟩ := idx0 t
  show (cfg0.win 2).cut (grid0.coords t) ((dat0 W c).after 2 t) = _
  rw [after0_2]
  funext j
  obtain ⟨p, q, rfl⟩ : ∃ (p : Fin 2048) (q : Fin 256), j = ix2 p q := ⟨j 0, j 1, eq_ix2 j⟩
  show ((outsAt0 W c t.val t.isLt).1 : Vec Ideal S2048x256 .f32) (ix2 p q) = G0 W c (((cfg0.win 2).blk t).view.emb (ix2 p q))
  rw [out_inv W c t h7 p q]
  have e : ((cfg0.win 2).blk t).view.emb (ix2 p q) = ix2 (rowAt t.val (lt32 t) p) q := by
    funext a
    apply Fin.ext
    match a with
    | ⟨0, _⟩ => show win0_2.index t (0 : Fin 2) * 2048 + 1 * p.val = (t.val / 8) * 2048 + p.val; rw [e4]; omega
    | ⟨1, _⟩ => show win0_2.index t (1 : Fin 2) * 256 + 1 * q.val = q.val; rw [e5]; omega
  rw [e]
  rfl

/-- An index of the output array is in a point's block iff each coordinate is in the block's range on its axis. -/
theorem mem_blk0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v1).slice (win0_2.rect t)).set ↔ _
  rw [View.set_slice_whole, Rect.mem_set_unit]
  exact Iff.rfl

/-- Every row is in the block of its row tile's last point. -/
theorem cover0 (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 32 := N_0
  let t : Fin cfg0.N := ⟨((i 0).val / 2048) * 8 + 7, by omega⟩
  have htv : t.val = ((i 0).val / 2048) * 8 + 7 := rfl
  obtain ⟨-, -, -, -, e4, e5⟩ := idx0 t
  refine ⟨t, (flush0_2 t).mpr (by omega), ?_⟩
  rw [mem_blk0]
  intro a
  match a with
  | ⟨0, _⟩ => show win0_2.index t (0 : Fin 2) * 2048 ≤ (i 0).val ∧ (i 0).val < win0_2.index t (0 : Fin 2) * 2048 + 2048; rw [e4]; omega
  | ⟨1, _⟩ => show win0_2.index t (1 : Fin 2) * 256 ≤ (i 1).val ∧ (i 1).val < win0_2.index t (1 : Fin 2) * 256 + 256; rw [e5]; omega

/-- The output array ends holding the activation of the product of the two factors as the region finds them. -/
theorem final0_at (c : Dev nD) :
    (dat0 (F := Ideal) W c).arrAt 2 cfg0.N = relu (mm (adj0 W c) (rhs0 W c)) :=
  (dat0 W c).arrAt_eq_of_cover 2 (G0 W c) (flushed0_eq W c) cover0

/-- The same, with the two factors spelt as the entry contents of their arrays. -/
theorem final0 (c : Dev nD) :
    (dat0 (F := Ideal) W c).arrAt 2 cfg0.N = Cert.GcnSpec.relu (Cert.GcnSpec.mm (W c main_arg0) (W c main_v0)) :=
  final0_at W c

end Result

end Cert.KernelIdeal.Val
end
-- ==== Proof.KernelPayload1.lean ====
/-
  The arithmetic of the second kernel's three stored values, read at one entry, with floats the extended reals and
  every operation exact.

  The accumulator block starts as the zero block; each step adds to it the product of a 2048 × 1024 block of the
  left factor with a 1024 × 64 block of the right factor (rounding the factors to a narrower format is the identity
  on extended reals, and a reshape to the same shape changes nothing), so at entry (p, q) the new value is the old one
  plus the sum over k of A(p,k) · B(k,q); the last step stores the row-wise log-softmax of the accumulator:
  (z(p,q) - m p) - log (∑ₖ exp (z(p,k) - m p)) with m p the maximum of row p.
-/
import proofs.«170206_j10720238371545_2_alg».proof.Proof.Gen.KernelIdeal.Skeleton
import proofs.«170206_j10720238371545_2_alg».proof.Proof.LibDotSum
import proofs.«170206_j10720238371545_2_alg».proof.Proof.LibLogSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelSide

open Cert.KernelIdeal Cert.KernelIdeal.Gen Idealize.ShloMosaic Idealize.ShloMosaic.ValueIdx

/-- The first stored value is the zero block. -/
theorem k1_pay1_apply (p : Fin 2048) (q : Fin 64) : k1_pay1 (F := Ideal) (ix2 p q) = 0 := by
  unfold k1_pay1
  rw [shapeCast_self, broadcast_apply]
  exact Ideal.ofBits_zero_f32

/-- The product of a 2048 × 1024 block with a 1024 × 64 block into the zero block, at an entry. -/
theorem k1_dot_apply (a : FVec Ideal S2048x1024 .bf16) (b : FVec Ideal S1024x64 .bf16) (p : Fin 2048) (q : Fin 64) :
    matmul dot_S2048x1024_S1024x64_S2048x64_1_0_0_1_n_n none a b (constant (F := Ideal) S2048x64 .f32 0x00000000#32) (ix2 p q)
      = ∑ k : Fin 1024, a (ix2 p k) * b (ix2 k q) := by
  refine (Ideal.matmul_constant_zero_apply dot_S2048x1024_S1024x64_S2048x64_1_0_0_1_n_n none a b (ix2 p q)).trans ?_
  exact Cert.LibDotSum.sum_dot (M := 2048) (K := 1024) (N := 64) dot_S2048x1024_S1024x64_S2048x64_1_0_0_1_n_n rfl rfl
    (fun _ _ => rfl) (fun _ _ => rfl) (fun _ _ => rfl) (fun _ _ => rfl) a b p q

/-- One accumulation step at an entry: the old value plus the block product. -/
theorem k1_pay2_apply (v3 : Vec Ideal S2048x1024 .f32) (v8 : Vec Ideal S1024x64 .f32) (v11 : Vec Ideal S2048x64 .f32)
    (p : Fin 2048) (q : Fin 64) :
    k1_pay2 v3 v8 v11 (ix2 p q) = v11 (ix2 p q) + ∑ k : Fin 1024, v3 (ix2 p k) * v8 (ix2 k q) := by
  unfold k1_pay2
  rw [shapeCast_self, addf_apply, k1_dot_apply, shapeCast_self]
  rfl

/-- The last step stores the row-wise log-softmax of the accumulator. -/
theorem k1_pay3_apply (v20 : Vec Ideal S2048x64 .f32) (p : Fin 2048) (q : Fin 64) :
    k1_pay3 v20 (ix2 p q) = Cert.LibLogSoftmax.rowLogSoftmaxAt v20 p q := by
  unfold k1_pay3
  exact Cert.LibLogSoftmax.kernel_logSoftmax_apply (A := 2048) (B := 64) v20 reduces_S2048x64_S2048 (.inl rfl) rfl rfl
    shapeCasts_S2048_S2048x1 broadcasts_S2048x1_S2048x64 p q

end Cert.KernelSide

end
-- ==== Proof.KI.Value1a.lean ====
/-
  Region 1, the value of what each case of the body leaves: the accumulator after a first, a middle and a last column
  block, and the output's buffer after a last one, as the stored values' arithmetic applied to the blocks the body
  loads. Each case ends with one store that covers its buffer, so the buffer reads back that store's value; the loads
  read whole buffers, except the right factor's, of which the body loads the 1024 rows of the current column block.
-/
import proofs.«170206_j10720238371545_2_alg».proof.Proof.KI.Frame1
import proofs.«170206_j10720238371545_2_alg».proof.Proof.KernelPayload1
import proofs.«170206_j10720238371545_2_alg».proof.Proof.BlockSum
import proofs.«170206_j10720238371545_2_alg».proof.Proof.Spec
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

theorem hz1 : (![0, 0] : Fin 2 → Nat) = fun _ => 0 := funext fun a => by fin_cases a <;> rfl

/-! ## What each case leaves, as the stored values' arithmetic -/

/-- The 1024-row block of the right operand the body loads at a grid point. -/
abbrev rblk1 (i : grid1.Coords) (x1 : Vec F S8192x64 .f32) : Vec F S1024x64 .f32 :=
  View.ld x1 (Rect.unit (s := S8192x64) (k1_off1 i) S1024x64.size (k1_off1_inb i))

/-- A middle column block: the accumulator plus the block product. -/
theorem sout1_B_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x1024 .f32) (x1 : Vec F S8192x64 .f32) (xs : Vec F S2048x64 .f32) :
    sout1_B c i arg2 harg2 arg3 harg3 arg4 harg4 arg5 harg5 hc0 hc1 x0 x1 xs = k1_pay2 x0 (rblk1 i x1) xs := by
  unfold sout1_B
  rw [View.read_writes_eq_canon _ _ _ (scover1_B c i arg2 harg2 arg3 harg3 arg4 harg4 arg5 harg5 hc0 hc1 x0 x1 xs)]
  unfold kernelRun1_B
  dsimp only
  rw [View.canon_unit_zero hz1]
  simp only [View.readAt_eq_ld, harg2.read_unread, harg3.read_unread, harg5.read_unread,
    View.ld_unit_zero (S := S2048x1024) hz1, View.ld_unit_zero (S := S2048x64) hz1]

/-- The first column block: the zero block plus the block product. -/
theorem sout1_A_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x1024 .f32) (x1 : Vec F S8192x64 .f32) :
    sout1_A c i arg2 harg2 arg3 harg3 arg4 harg4 arg5 harg5 hc0 hc1 x0 x1 = k1_pay2 x0 (rblk1 i x1) (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S2048x64) hz1, View.readCov_unit_zero (S := S2048x64) _ hz1]
  simp only [View.readAt_eq_ld, harg2.read_unread, harg3.read_unread,
    View.ld_unit_zero (S := S2048x1024) hz1, View.ld_unit_zero (S := S2048x64) hz1]
  rfl

/-- The last column block, the accumulator: the accumulator plus the block product. -/
theorem sout1_C_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) :
    sout1_C c i arg2 harg2 arg3 harg3 arg4 harg4 arg5 harg5 hc0 hc1 x0 x1 xs = k1_pay2 x0 (rblk1 i x1) xs := by
  unfold sout1_C
  rw [View.read_writes_eq_canon _ _ _ (scover1_C c i arg2 harg2 arg3 harg3 arg4 harg4 arg5 harg5 hc0 hc1 x0 x1 xs)]
  unfold kernelRun1_C
  dsimp only
  sl_unfold_words
  rw [View.canon_unit_zero hz1]
  simp only [View.readAt_eq_ld, harg2.read_unread, harg3.read_unread, harg5.read_unread,
    View.ld_unit_zero (S := S2048x1024) hz1, View.ld_unit_zero (S := S2048x64) hz1]
  rfl

/-- The last column block, the output's buffer: the row-wise log-softmax of the new accumulator. -/
theorem out1_C_eq (c : Dev nD) (i : grid1.Coords) (arg2 : Memref sig .tc .vmem S2048x1024 .f32) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x1024 .f32) (x1 : Vec F S8192x64 .f32) (xs : Vec F S2048x64 .f32) :
    out1_C c i arg2 harg2 arg3 harg3 arg4 harg4 arg5 harg5 hc0 hc1 x0 x1 xs = k1_pay3 (k1_pay2 x0 (rblk1 i x1) xs) := by
  unfold out1_C
  rw [View.read_writes_eq_canon _ _ _ (cover1_C c i arg2 harg2 arg3 harg3 arg4 harg4 arg5 harg5 hc0 hc1 x0 x1 xs)]
  unfold kernelRun1_C
  dsimp only
  sl_unfold_words
  rw [View.canon_unit_zero hz1, View.readCov_unit_zero (S := S2048x64) _ hz1]
  simp only [View.readAt_eq_ld, harg2.read_unread, harg3.read_unread, harg5.read_unread,
    View.ld_unit_zero (S := S2048x1024) hz1, View.ld_unit_zero (S := S2048x64) hz1]
  rfl

end Cert.KernelIdeal.Val
end
-- ==== Proof.KI.Value1b.lean ====
/-
  Region 1, the blocks the body reads at explicit coordinates, and the accumulation over the grid.

  Grid point t has row tile t / 8 and column block t % 8. The left factor's tile at t holds rows (t/8)·2048 + p and
  columns (t%8)·1024 + k of the left factor; the right factor's buffer holds the whole right factor, of which the
  body loads rows (t%8)·1024 + k. So each step adds to the accumulator, at (p, q), the contribution of column block
  t % 8 to entry ((t/8)·2048 + p, q) of the product, and after the step at column block m the accumulator holds the sum
  of the contributions of blocks 0 … m; after the last block that is the entry of the product, and the output's buffer
  holds the row-wise log-softmax of the accumulator — which, an entry of it reading its own row only, is the row-wise
  log-softmax of the product at row (t/8)·2048 + p.
-/
import proofs.«170206_j10720238371545_2_alg».proof.Proof.KI.Value1a
import proofs.«170206_j10720238371545_2_alg».proof.Proof.KI.Value0b

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

/-! ## The blocks the body reads, at explicit coordinates -/

open Cert.LibLogSoftmax Cert.GcnSpec Cert.KernelSide

theorem lt32_1 (t : Fin cfg1.N) : t.val < 32 := lt_of_lt_of_eq t.isLt N_1

/-- The grid point's column-block coordinate and the windows' block indices, decided over the grid. -/
theorem coord1_1 : ∀ t : Fin cfg1.N, ((grid1.coords t) 1).val = t.val % 8 :=
  (by decide +kernel : ∀ t : Fin grid1.N, ((grid1.coords t) 1).val = t.val % 8)

theorem idx1 : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0 :=
  (by decide +kernel : ∀ t : Fin grid1.N, _)

variable (V : (c : Dev nD) → (b : Ref sig .tc) → Buf (Elt F) ((c : Thread nD τ).loc b))

/-- The left factor as the region finds it. -/
abbrev adj1 (c : Dev nD) : S8192x8192.Idx → Elt F .f32 := V c main_arg0
/-- The right factor as the region finds it. -/
abbrev rhs1 (c : Dev nD) : S8192x64.Idx → Elt F .f32 := V c main_v2

/-- The left factor's tile at a grid point, at an entry. -/
theorem iblk1_0_apply (c : Dev nD) (t : Fin cfg1.N) (p : Fin 2048) (k : Fin 1024) :
    (iblk1 V c 0 t : Vec F S2048x1024 .f32) (ix2 p k) = adj1 V c (ix2 (rowAt t.val (lt32_1 t) p) (colAt t.val k)) := by
  obtain ⟨e0, e1, -⟩ := idx1 t
  unfold iblk1
  rw [View.read_apply]
  show V c main_arg0 _ = V c main_arg0 _
  congr 1
  funext a
  apply Fin.ext
  match a with
  | ⟨0, _⟩ => show win1_0.index t (0 : Fin 2) * 2048 + 1 * p.val = (t.val / 8) * 2048 + p.val; rw [e0]; omega
  | ⟨1, _⟩ => show win1_0.index t (1 : Fin 2) * 1024 + 1 * k.val = (t.val % 8) * 1024 + k.val; rw [e1]; omega

/-- The right factor's staging buffer holds the whole factor at every grid point. -/
theorem iblk1_1_eq (c : Dev nD) (t : Fin cfg1.N) : (iblk1 V c 1 t : Vec F S8192x64 .f32) = rhs1 V c := by
  obtain ⟨-, -, e2, e3, -⟩ := idx1 t
  funext j
  unfold iblk1
  rw [View.read_apply]
  show V c main_v2 _ = V c main_v2 j
  congr 1
  funext a
  apply Fin.ext
  match a with
  | ⟨0, _⟩ => show win1_1.index t (0 : Fin 2) * 8192 + 1 * (j 0).val = (j 0).val; rw [e2]; omega
  | ⟨1, _⟩ => show win1_1.index t (1 : Fin 2) * 64 + 1 * (j 1).val = (j 1).val; rw [e3]; omega

/-- The 1024-row block of the right factor loaded at a grid point, at an entry. -/
theorem rblk1_apply (t : Fin cfg1.N) (x1 : Vec F S8192x64 .f32) (k : Fin 1024) (q : Fin 64) :
    rblk1 (grid1.coords t) x1 (ix2 k q) = x1 (ix2 (colAt t.val k) q) := by
  show x1 ((Rect.unit (s := S8192x64) (k1_off1 (grid1.coords t)) S1024x64.size (k1_off1_inb (grid1.coords t))).emb (ix2 k q)) = _
  congr 1
  funext a
  apply Fin.ext
  match a with
  | ⟨0, _⟩ =>
    show k1_off1 (grid1.coords t) 0 + 1 * k.val = (t.val % 8) * 1024 + k.val
    rw [k1_off1_eq]
    show 1024 * ((grid1.coords t) 1).val + 1 * k.val = _
    rw [coord1_1 t]; omega
  | ⟨1, _⟩ =>
    show k1_off1 (grid1.coords t) 1 + 1 * q.val = q.val
    rw [k1_off1_eq]
    show 0 + 1 * q.val = q.val
    omega

/-! ## The accumulation -/

section Accumulation

variable (W : (c : Dev nD) → (b : Ref sig .tc) → Buf (Elt Ideal) ((c : Thread nD τ).loc b))

/-- One step at a grid point, at an entry: the old accumulator plus the column block's contribution. -/
theorem step1_apply (c : Dev nD) (t : Fin cfg1.N) (xs : Vec Ideal S2048x64 .f32) (p : Fin 2048) (q : Fin 64) :
    k1_pay2 (iblk1 W c 0 t) (rblk1 (grid1.coords t) (iblk1 W c 1 t)) xs (ix2 p q)
      = xs (ix2 p q) + blockTerm (adj1 W c) (rhs1 W c) (rowAt t.val (lt32_1 t) p) q ⟨t.val % 8, Nat.mod_lt _ (by norm_num)⟩ := by
  refine (k1_pay2_apply _ _ xs p q).trans ?_
  unfold blockTerm
  refine congrArg (xs (ix2 p q) + ·) (Finset.sum_congr rfl fun k _ => ?_)
  rw [iblk1_0_apply W c t p k, rblk1_apply t _ k q, iblk1_1_eq W c t]
  rfl

/-- After the step at grid point t the accumulator holds, at (p, q), the contributions of column blocks 0 … t % 8 to
    entry ((t/8)·2048 + p, q) of the product. -/
theorem acc1_inv (c : Dev nD) : ∀ (n : ℕ) (t : Fin cfg1.N), t.val = n → ∀ (p : Fin 2048) (q : Fin 64),
    ((outsAt1 W c t.val t.isLt).2 : Vec Ideal S2048x64 .f32) (ix2 p q)
      = partialSum (adj1 W c) (rhs1 W c) (rowAt t.val (lt32_1 t) p) q (t.val % 8 + 1) (Nat.succ_le_of_lt (Nat.mod_lt _ (by norm_num))) := by
  intro n
  induction n using Nat.strong_induction_on with
  | _ n ih =>
    intro t ht p q
    by_cases h0 : t.val % 8 = 0
    · have h1 : ¬t.val % 8 = 7 := by omega
      rw [outsAt1_A W c t h0 h1]
      dsimp only
      rw [sout1_A_eq]
      refine (step1_apply W c t _ p q).trans ?_
      rw [k1_pay1_apply, partialSum_succ, partialSum_of_eq_zero _ _ _ _ _ _ h0]
    · have hz : t.val ≠ 0 := fun e => h0 (by rw [e])
      have hlt : t.val - 1 < cfg1.N := Nat.lt_of_le_of_lt (Nat.sub_le _ _) t.isLt
      have ih' := ih (t.val - 1) (by omega) ⟨t.val - 1, hlt⟩ rfl p q
      have hN := lt32_1 t
      have hprev : ((outsAt1 W c (t.val - 1) hlt).2 : Vec Ideal S2048x64 .f32) (ix2 p q)
          = partialSum (adj1 W c) (rhs1 W c) (rowAt t.val (lt32_1 t) p) q (t.val % 8) (Nat.le_of_lt (Nat.mod_lt _ (by norm_num))) :=
        ih'.trans (partialSum_cast _ _ q (Fin.ext (by show ((t.val - 1) / 8) * 2048 + p.val = (t.val / 8) * 2048 + p.val; omega))
          (by show (t.val - 1) % 8 + 1 = t.val % 8; omega) _ _)
      by_cases h1 : t.val % 8 = 7
      · rw [outsAt1_C W c t h0 h1]
        dsimp only
        rw [sout1_C_eq]
        refine (step1_apply W c t _ p q).trans ?_
        rw [partialSum_succ, hprev]
      · rw [outsAt1_B W c t h0 h1]
        dsimp only
        rw [sout1_B_eq]
        refine (step1_apply W c t _ p q).trans ?_
        rw [partialSum_succ, hprev]

/-- At the last column block the accumulator holds the product's entries of its row tile. -/
theorem acc1_last (c : Dev nD) (t : Fin cfg1.N) (h7 : t.val % 8 = 7) (p : Fin 2048) (q : Fin 64) :
    ((outsAt1 W c t.val t.isLt).2 : Vec Ideal S2048x64 .f32) (ix2 p q)
      = mm (adj1 W c) (rhs1 W c) (ix2 (rowAt t.val (lt32_1 t) p) q) := by
  rw [acc1_inv W c t.val t rfl p q, mm_ix2]
  exact (partialSum_cast _ _ q rfl (by omega) _ _).trans (partialSum_eight _ _ _ q)

/-- At the last column block the output's buffer holds the row-wise log-softmax of the product, at its row tile's rows. -/
theorem out1_inv (c : Dev nD) (t : Fin cfg1.N) (h7 : t.val % 8 = 7) (p : Fin 2048) (q : Fin 64) :
    ((outsAt1 W c t.val t.isLt).1 : Vec Ideal S2048x64 .f32) (ix2 p q)
      = rowLogSoftmaxAt (mm (adj1 W c) (rhs1 W c)) (rowAt t.val (lt32_1 t) p) q := by
  have h0 : ¬t.val % 8 = 0 := by omega
  have e : (outsAt1 W c t.val t.isLt).1 = k1_pay3 ((outsAt1 W c t.val t.isLt).2) := by
    rw [outsAt1_C W c t h0 h7]
    dsimp only
    rw [out1_C_eq, sout1_C_eq]
  rw [e]
  refine (k1_pay3_apply _ p q).trans ?_
  exact rowLogSoftmaxAt_congr p (rowAt t.val (lt32_1 t) p) q fun k => acc1_last W c t h7 p k

end Accumulation

end Cert.KernelIdeal.Val
end
-- ==== Proof.KI.Value1.lean ====
/-
  Region 1, the result: the output array after the region is the row-wise log-softmax of the product of the two factors
  as the region finds them. The points at the last column block write back their row tile's block of it, and those
  blocks cover the array: row r is in the block of the last point of row tile r / 2048.
-/
import proofs.«170206_j10720238371545_2_alg».proof.Proof.KI.Value1b

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat Cfg Window)
open Cert.LibLogSoftmax Cert.GcnSpec Cert.KernelSide

/-! ## The result array -/

section Result

variable (W : (c : Dev nD) → (b : Ref sig .tc) → Buf (Elt Ideal) ((c : Thread nD τ).loc b))

/-- What the output array ends holding: the row-wise log-softmax of the product. -/
abbrev G1 (c : Dev nD) : Arr 8192 64 := rowLogSoftmax (mm (adj1 W c) (rhs1 W c))

/-- What a last-column-block point writes back is its block of the row-wise log-softmax of the product. -/
theorem flushed1_eq (c : Dev nD) (t : Fin cfg1.N) (hf : (cfg1.win 2).flush t = true) :
    (dat1 W c).flushed 2 t = ((cfg1.win 2).blk t).view.read (Elt Ideal) (G1 W c) := by
  have h7 : t.val % 8 = 7 := (flush1_2 t).mp hf
  obtain ⟨-, -, -, -, e4, e5⟩ := idx1 t
  show (cfg1.win 2).cut (grid1.coords t) ((dat1 W c).after 2 t) = _
  rw [after1_2]
  funext j
  obtain ⟨p, q, rfl⟩ : ∃ (p : Fin 2048) (q : Fin 64), j = ix2 p q := ⟨j 0, j 1, eq_ix2 j⟩
  show ((outsAt1 W c t.val t.isLt).1 : Vec Ideal S2048x64 .f32) (ix2 p q) = G1 W c (((cfg1.win 2).blk t).view.emb (ix2 p q))
  rw [out1_inv W c t h7 p q]
  have e : ((cfg1.win 2).blk t).view.emb (ix2 p q) = ix2 (rowAt t.val (lt32_1 t) p) q := by
    funext a
    apply Fin.ext
    match a with
    | ⟨0, _⟩ => show win1_2.index t (0 : Fin 2) * 2048 + 1 * p.val = (t.val / 8) * 2048 + p.val; rw [e4]; omega
    | ⟨1, _⟩ => show win1_2.index t (1 : Fin 2) * 64 + 1 * q.val = q.val; rw [e5]; omega
  rw [e]
  rfl

/-- An index of the output array is in a point's block iff each coordinate is in the block's range on its axis. -/
theorem mem_blk1 (t : Fin cfg1.N) (i : S8192x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v3).slice (win1_2.rect t)).set ↔ _
  rw [View.set_slice_whole, Rect.mem_set_unit]
  exact Iff.rfl

/-- Every row is in the block of its row tile's last point. -/
theorem cover1 (i : S8192x64.Idx) : ∃ t : Fin cfg1.N, (cfg1.win 2).flush t = true ∧ i ∈ ((cfg1.win 2).blk t).view.set := by
  have hi0 : (i 0).val < 8192 := (i 0).isLt
  have hi1 : (i 1).val < 64 := (i 1).isLt
  have hN : cfg1.N = 32 := N_1
  let t : Fin cfg1.N := ⟨((i 0).val / 2048) * 8 + 7, by omega⟩
  have htv : t.val = ((i 0).val / 2048) * 8 + 7 := rfl
  obtain ⟨-, -, -, -, e4, e5⟩ := idx1 t
  refine ⟨t, (flush1_2 t).mpr (by omega), ?_⟩
  rw [mem_blk1]
  intro a
  match a with
  | ⟨0, _⟩ => show win1_2.index t (0 : Fin 2) * 2048 ≤ (i 0).val ∧ (i 0).val < win1_2.index t (0 : Fin 2) * 2048 + 2048; rw [e4]; omega
  | ⟨1, _⟩ => show win1_2.index t (1 : Fin 2) * 64 ≤ (i 1).val ∧ (i 1).val < win1_2.index t (1 : Fin 2) * 64 + 64; rw [e5]; omega

/-- The output array ends holding the row-wise log-softmax of the product of the two factors as the region finds them. -/
theorem final1_at (c : Dev nD) :
    (dat1 (F := Ideal) W c).arrAt 2 cfg1.N = rowLogSoftmax (mm (adj1 W c) (rhs1 W c)) :=
  (dat1 W c).arrAt_eq_of_cover 2 (G1 W c) (flushed1_eq W c) cover1

/-- The same, with the two factors spelt as the entry contents of their arrays. -/
theorem final1 (c : Dev nD) :
    (dat1 (F := Ideal) W c).arrAt 2 cfg1.N = Cert.LibLogSoftmax.rowLogSoftmax (Cert.GcnSpec.mm (W c main_arg0) (W c main_v2)) :=
  final1_at W c

end Result

end Cert.KernelIdeal.Val
end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.SpecAlgebra.lean ====
/-
  The two bracketings of the graph convolution agree on real-valued inputs.

  Over the extended reals the product of matrices is not associative in general (a sum may meet +∞ and -∞), but on
  matrices all of whose entries are real numbers it is the product of real matrices: choose real witnesses, move the
  coercion out of the products and the finite sums, and both sides are the double sum ∑ₖ ∑ₗ a(p,k) b(k,l) c(l,q).
  Products and relu of real-valued matrices are real-valued, so both layers re-associate, and the two specifications
  are the row-wise log-softmax of the same matrix.
-/
import proofs.«170206_j10720238371545_2_alg».proof.Proof.Spec
import proofs.«170206_j10720238371545_2_alg».proof.Proof.LibERealSum

noncomputable section

namespace Cert.GcnSpec

open Idealize.ShloMosaic Idealize.ShloMosaic.ValueIdx Cert.LibLogSoftmax Cert.LibERealSum

/-- The product of real-valued matrices is real-valued. -/
theorem mm_real {M K N : Nat} {A : Arr M K} {B : Arr K N} (hA : ∀ i, IsReal (A i)) (hB : ∀ i, IsReal (B i)) :
    ∀ i, IsReal (mm A B i) := by
  intro i
  unfold mm mmAt
  exact IsReal.sum _ _ fun k _ => (hA _).mul (hB _)

/-- relu of a real number is a real number. -/
theorem reluE_real {a : EReal} (ha : IsReal a) : IsReal (reluE a) := by
  obtain ⟨r, rfl⟩ := ha
  rw [reluE_eq]
  rcases le_total (r : EReal) 0 with h | h
  · rw [max_eq_right h]; exact IsReal.zero
  · rw [max_eq_left h]; exact IsReal.coe r

/-- relu of a real-valued matrix is real-valued. -/
theorem relu_real {M N : Nat} {Z : Arr M N} (hZ : ∀ i, IsReal (Z i)) : ∀ i, IsReal (relu Z i) :=
  fun i => reluE_real (hZ i)

/-- Associativity of the matrix product, entry by entry, on real-valued matrices. -/
theorem mmAt_assoc {M K L N : Nat} (A : Arr M K) (B : Arr K L) (C : Arr L N)
    (hA : ∀ i, IsReal (A i)) (hB : ∀ i, IsReal (B i)) (hC : ∀ i, IsReal (C i)) (p : Fin M) (q : Fin N) :
    mmAt A (mm B C) p q = mmAt (mm A B) C p q := by
  have hA' : ∀ i, ∃ r : ℝ, A i = (r : EReal) := hA
  have hB' : ∀ i, ∃ r : ℝ, B i = (r : EReal) := hB
  have hC' : ∀ i, ∃ r : ℝ, C i = (r : EReal) := hC
  choose a ha using hA'
  choose b hb using hB'
  choose c hc using hC'
  have eL : mmAt A (mm B C) p q
      = ((∑ k : Fin K, a (ix2 p k) * ∑ l : Fin L, b (ix2 k l) * c (ix2 l q) : ℝ) : EReal) := by
    unfold mmAt
    rw [coe_sum]
    refine Finset.sum_congr rfl fun k _ => ?_
    rw [mm_ix2]
    unfold mmAt
    rw [EReal.coe_mul, coe_sum, ha]
    refine congrArg _ (Finset.sum_congr rfl fun l _ => ?_)
    rw [EReal.coe_mul, hb, hc]
  have eR : mmAt (mm A B) C p q
      = ((∑ l : Fin L, (∑ k : Fin K, a (ix2 p k) * b (ix2 k l)) * c (ix2 l q) : ℝ) : EReal) := by
    unfold mmAt
    rw [coe_sum]
    refine Finset.sum_congr rfl fun l _ => ?_
    rw [mm_ix2]
    unfold mmAt
    rw [EReal.coe_mul, coe_sum, hc]
    refine congrArg (· * _) (Finset.sum_congr rfl fun k _ => ?_)
    rw [EReal.coe_mul, ha, hb]
  rw [eL, eR]
  refine congrArg _ ?_
  simp only [Finset.mul_sum, Finset.sum_mul]
  rw [Finset.sum_comm]
  exact Finset.sum_congr rfl fun l _ => Finset.sum_congr rfl fun k _ => by ring

/-- Associativity of the matrix product on real-valued matrices. -/
theorem mm_assoc {M K L N : Nat} (A : Arr M K) (B : Arr K L) (C : Arr L N)
    (hA : ∀ i, IsReal (A i)) (hB : ∀ i, IsReal (B i)) (hC : ∀ i, IsReal (C i)) :
    mm A (mm B C) = mm (mm A B) C :=
  funext fun i => mmAt_assoc A B C hA hB hC (i 0) (i 1)

/-- On real-valued inputs the two bracketings of the graph convolution are the same function. -/
theorem kernelSpec_eq_refSpec (adj : Arr 8192 8192) (x : Arr 8192 256) (W1 : Arr 256 256) (W2 : Arr 256 64)
    (hadj : ∀ i, IsReal (adj i)) (hx : ∀ i, IsReal (x i)) (hW1 : ∀ i, IsReal (W1 i)) (hW2 : ∀ i, IsReal (W2 i)) :
    kernelSpec adj x W1 W2 = refSpec adj x W1 W2 := by
  unfold kernelSpec refSpec
  have h1 : mm adj (mm x W1) = mm (mm adj x) W1 := mm_assoc adj x W1 hadj hx hW1
  have hH : ∀ i, IsReal (relu (mm (mm adj x) W1) i) := relu_real (mm_real (mm_real hadj hx) hW1)
  rw [h1, mm_assoc adj (relu (mm (mm adj x) W1)) W2 hadj hH hW2]

end Cert.GcnSpec

end
-- ==== Proof.RefRun.lean ====
/-
  The reference program's run, read back: @main is a straight line of 22 host operations (the outlined relu and
  log_softmax listed in place at their call sites), so every weakly fair execution terminates with each buffer at the
  fold of the operations' results over the launch contents. The result buffer then holds

      refTerm adj x W1 W2 = hostLogSoftmax (logits adj x W1 W2),
      logits adj x W1 W2  = (adj · hidden adj x W1) · W2,      hidden adj x W1 = max ((adj · x) · W1) 0,

  each product a host dot_general, the log-softmax in the host's spelling (row maximum and row sum by `reduce`,
  broadcast back through [8192] → [8192, 1] → [8192, 64]); the arguments are unchanged.
-/
import proofs.«170206_j10720238371545_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's 22 operations, in order (a called function's operations stand in its call's place, spelt `TRef.…`). -/
abbrev ops : List (HloOp τ sig (Elt F)) :=
  [ binary main_arg0 main_arg1 main_v0 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v0 main_arg2 main_v1 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x256, .f32⟩) main_call0_v0) (broadcastInDim S8192x256 ![] bcast_S_S8192x256),
    TRef.binary (TRef.of (T := ⟨S8192x256, .f32⟩) main_v1) (TRef.of (T := ⟨S8192x256, .f32⟩) main_call0_v0) (TRef.of (T := ⟨S8192x256, .f32⟩) main_v2) maximumf,
    binary main_arg0 main_v2 main_v3 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v3 main_arg3 main_v4 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    TRef.nullary (TRef.of (T := ⟨S_, .f32⟩) main_call1_cst) (constant S_ .f32 0xFF800000#32),
    TRef.binary (TRef.of (T := ⟨S8192x64, .f32⟩) main_v4) (TRef.of (T := ⟨S_, .f32⟩) main_call1_cst) (TRef.of (T := ⟨S8192, .f32⟩) main_call1_v0) (fun x v => Host.reduce FloatOps.maximumf x v reducesTo_S8192x64_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x64, .f32⟩) main_call1_v4) (broadcastInDim S8192x64 ![0, 1] bcast_S8192x1_S8192x64_0_1),
    TRef.binary (TRef.of (T := ⟨S8192x64, .f32⟩) main_v4) (TRef.of (T := ⟨S8192x64, .f32⟩) main_call1_v4) (TRef.of (T := ⟨S8192x64, .f32⟩) main_call1_v5) subf,
    TRef.unary (TRef.of (T := ⟨S8192x64, .f32⟩) main_call1_v5) (TRef.of (T := ⟨S8192x64, .f32⟩) main_call1_v6) Host.exp,
    TRef.nullary (TRef.of (T := ⟨S_, .f32⟩) main_call1_cst_1) (constant S_ .f32 0x00000000#32),
    TRef.binary (TRef.of (T := ⟨S8192x64, .f32⟩) main_call1_v6) (TRef.of (T := ⟨S_, .f32⟩) main_call1_cst_1) (TRef.of (T := ⟨S8192, .f32⟩) main_call1_v7) (fun x v => Host.reduceAdd x v reducesTo_S8192x64_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x64, .f32⟩) main_call1_v10) (broadcastInDim S8192x64 ![0, 1] bcast_S8192x1_S8192x64_0_1),
    TRef.binary (TRef.of (T := ⟨S8192x64, .f32⟩) main_call1_v5) (TRef.of (T := ⟨S8192x64, .f32⟩) main_call1_v10) (TRef.of (T := ⟨S8192x64, .f32⟩) main_v5) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The composed term, by layers -/

/-- The hidden layer: relu ((adj · x) · W1), the relu as the maximum with the broadcast zero word. -/
def hidden (adj : (⟨S8192x8192, .f32⟩ : BufTy).Contents (Elt F)) (x : (⟨S8192x256, .f32⟩ : BufTy).Contents (Elt F)) (W1 : (⟨S256x256, .f32⟩ : BufTy).Contents (Elt F)) :
    (⟨S8192x256, .f32⟩ : BufTy).Contents (Elt F) :=
  maximumf
    (Host.dotGeneral dot_S8192x256_S256x256_S8192x256_1_0_0_1_n_n none
      (Host.dotGeneral dot_S8192x8192_S8192x256_S8192x256_1_0_0_1_n_n none adj x) W1)
    (broadcastInDim S8192x256 ![] bcast_S_S8192x256 (constant S_ .f32 0x00000000#32))

/-- The logits: (adj · hidden) · W2. -/
def logits (adj : (⟨S8192x8192, .f32⟩ : BufTy).Contents (Elt F)) (x : (⟨S8192x256, .f32⟩ : BufTy).Contents (Elt F)) (W1 : (⟨S256x256, .f32⟩ : BufTy).Contents (Elt F)) (W2 : (⟨S256x64, .f32⟩ : BufTy).Contents (Elt F)) :
    (⟨S8192x64, .f32⟩ : BufTy).Contents (Elt F) :=
  Host.dotGeneral dot_S8192x256_S256x64_S8192x64_1_0_0_1_n_n none
    (Host.dotGeneral dot_S8192x8192_S8192x256_S8192x256_1_0_0_1_n_n none adj (hidden adj x W1)) W2

/-- The host's row-wise log-softmax of a [8192, 64] array: z - m - log (∑ exp (z - m)), m the row maximum (the greater
    of -∞ and the fold from -∞), the row statistics broadcast back through [8192, 1]. -/
def hostLogSoftmax (z : (⟨S8192x64, .f32⟩ : BufTy).Contents (Elt F)) : (⟨S8192x64, .f32⟩ : BufTy).Contents (Elt F) :=
  subf
    (subf z (broadcastInDim S8192x64 ![0, 1] bcast_S8192x1_S8192x64_0_1 (broadcastInDim S8192x1 ![0] bcast_S8192_S8192x1_0
      (maximumf (broadcastInDim S8192 ![] bcast_S_S8192 (constant S_ .f32 0xFF800000#32))
        (Host.reduce FloatOps.maximumf z (constant S_ .f32 0xFF800000#32) reducesTo_S8192x64_S8192_d1 h_S_)))))
    (broadcastInDim S8192x64 ![0, 1] bcast_S8192x1_S8192x64_0_1
      (Host.log (broadcastInDim S8192x1 ![0] bcast_S8192_S8192x1_0
        (Host.reduceAdd
          (Host.exp (subf z (broadcastInDim S8192x64 ![0, 1] bcast_S8192x1_S8192x64_0_1 (broadcastInDim S8192x1 ![0] bcast_S8192_S8192x1_0
            (maximumf (broadcastInDim S8192 ![] bcast_S_S8192 (constant S_ .f32 0xFF800000#32))
              (Host.reduce FloatOps.maximumf z (constant S_ .f32 0xFF800000#32) reducesTo_S8192x64_S8192_d1 h_S_))))))
          (constant S_ .f32 0x00000000#32) reducesTo_S8192x64_S8192_d1 h_S_))))

/-- What the result buffer holds after @main, as a function of the four arguments' launch contents. -/
def refTerm (adj : (⟨S8192x8192, .f32⟩ : BufTy).Contents (Elt F)) (x : (⟨S8192x256, .f32⟩ : BufTy).Contents (Elt F)) (W1 : (⟨S256x256, .f32⟩ : BufTy).Contents (Elt F)) (W2 : (⟨S256x64, .f32⟩ : BufTy).Contents (Elt F)) :
    (⟨S8192x64, .f32⟩ : BufTy).Contents (Elt F) :=
  hostLogSoftmax (logits adj x W1 W2)

/-! ## The run -/

set_option maxHeartbeats 2000000 in
/-- The fold of the 22 operations over contents `V`, read at the result buffer: the composed term of `V` at the four
    arguments. Each operation's result is rewritten at its own buffer and passed over at every other one; the
    transports along the typed references' (reflexive) type equations are the identity. -/
theorem after_result (V : Valuation τ sig (Elt F)) :
    after ops V (Proc.devRef .tc main_v5)
      = refTerm (V (Proc.devRef .tc main_arg0)) (V (Proc.devRef .tc main_arg1)) (V (Proc.devRef .tc main_arg2)) (V (Proc.devRef .tc main_arg3)) := by
  unfold refTerm hostLogSoftmax logits hidden
  after_results_simp
  simp only [cast_eq]

set_option maxHeartbeats 2000000 in
/-- On every device, for any float values, from any memory with zero counters: every weakly fair execution of
    @main terminates with the result buffer at `refTerm` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (after_result (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.RefSide

end
-- ==== Proof.RefValue.lean ====
/-
  The reference's result term is the reference's specification: at the extended reals each host dot_general is the
  matrix product entry by entry (a contraction over the one shared axis is the sum over that axis's coordinate), the
  maximum with the broadcast zero word is relu, and the host's spelling of log_softmax is the row-wise log-softmax.
-/
import proofs.«170206_j10720238371545_2_alg».proof.Proof.RefRun
import proofs.«170206_j10720238371545_2_alg».proof.Proof.Spec
import proofs.«170206_j10720238371545_2_alg».proof.Proof.LibDotSum
import proofs.«170206_j10720238371545_2_alg».proof.Proof.LibLogSoftmax
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx Cert.LibLogSoftmax Cert.GcnSpec

/-- A host product of an M × K by a K × N array contracted over the shared axis is the matrix product. -/
theorem dot_eq_mm {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : FVec Ideal ⟨2, ![M, K]⟩ .f32) (B : FVec Ideal ⟨2, ![K, N]⟩ .f32) :
    Host.dotGeneral (F := Ideal) D none A B = mm A B := by
  funext i
  obtain ⟨p, q, rfl⟩ : ∃ (p : Fin M) (q : Fin N), i = ix2 p q := ⟨i 0, i 1, eq_ix2 i⟩
  rw [mm_ix2]
  unfold mmAt
  simp only [Host.dotGeneral]
  rw [Ideal.dotGeneral_apply]
  exact Cert.LibDotSum.sum_dot D hr hs hl0 hl1 hr0 hr1 A B p q

/-! The [8192, 8192] × [8192, 256] product's operand indices at an output index and a contraction position. -/

theorem dotA_l0 (i : S8192x256.Idx) (q : dot_S8192x8192_S8192x256_S8192x256_1_0_0_1_n_n.contr.Idx) : (dot_S8192x8192_S8192x256_S8192x256_1_0_0_1_n_n.lhsIdx i q 0).val = (i 0).val := by
  unfold DotDims.lhsIdx
  rw [dif_neg (show ¬(0 : Fin S8192x8192.rank) ∈ dot_S8192x8192_S8192x256_S8192x256_1_0_0_1_n_n.lhsBatch by decide), dif_pos (show (0 : Fin S8192x8192.rank) ∈ dot_S8192x8192_S8192x256_S8192x256_1_0_0_1_n_n.lhsNonContracting by decide)]
  rfl
theorem dotA_l1 (i : S8192x256.Idx) (q : dot_S8192x8192_S8192x256_S8192x256_1_0_0_1_n_n.contr.Idx) : (dot_S8192x8192_S8192x256_S8192x256_1_0_0_1_n_n.lhsIdx i q 1).val = (q ⟨0, by decide⟩).val :=
  dot_S8192x8192_S8192x256_S8192x256_1_0_0_1_n_n.lhsIdx_val_of_single rfl i q
theorem dotA_r0 (i : S8192x256.Idx) (q : dot_S8192x8192_S8192x256_S8192x256_1_0_0_1_n_n.contr.Idx) : (dot_S8192x8192_S8192x256_S8192x256_1_0_0_1_n_n.rhsIdx i q 0).val = (q ⟨0, by decide⟩).val :=
  dot_S8192x8192_S8192x256_S8192x256_1_0_0_1_n_n.rhsIdx_val_of_single rfl i q
theorem dotA_r1 (i : S8192x256.Idx) (q : dot_S8192x8192_S8192x256_S8192x256_1_0_0_1_n_n.contr.Idx) : (dot_S8192x8192_S8192x256_S8192x256_1_0_0_1_n_n.rhsIdx i q 1).val = (i 1).val := by
  unfold DotDims.rhsIdx
  rw [dif_neg (show ¬(1 : Fin S8192x256.rank) ∈ dot_S8192x8192_S8192x256_S8192x256_1_0_0_1_n_n.rhsBatch by decide), dif_pos (show (1 : Fin S8192x256.rank) ∈ dot_S8192x8192_S8192x256_S8192x256_1_0_0_1_n_n.rhsNonContracting by decide)]
  rfl

/-- The host's [8192, 8192] × [8192, 256] product is the matrix product. -/
theorem dotA_eq (A : FVec Ideal S8192x8192 .f32) (B : FVec Ideal S8192x256 .f32) :
    Host.dotGeneral (F := Ideal) dot_S8192x8192_S8192x256_S8192x256_1_0_0_1_n_n none A B = mm A B :=
  dot_eq_mm dot_S8192x8192_S8192x256_S8192x256_1_0_0_1_n_n rfl rfl dotA_l0 dotA_l1 dotA_r0 dotA_r1 A B

/-! The [8192, 256] × [256, 256] product's operand indices at an output index and a contraction position. -/

theorem dotB_l0 (i : S8192x256.Idx) (q : dot_S8192x256_S256x256_S8192x256_1_0_0_1_n_n.contr.Idx) : (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem dotB_l1 (i : S8192x256.Idx) (q : dot_S8192x256_S256x256_S8192x256_1_0_0_1_n_n.contr.Idx) : (dot_S8192x256_S256x256_S8192x256_1_0_0_1_n_n.lhsIdx i q 1).val = (q ⟨0, by decide⟩).val :=
  dot_S8192x256_S256x256_S8192x256_1_0_0_1_n_n.lhsIdx_val_of_single rfl i q
theorem dotB_r0 (i : S8192x256.Idx) (q : dot_S8192x256_S256x256_S8192x256_1_0_0_1_n_n.contr.Idx) : (dot_S8192x256_S256x256_S8192x256_1_0_0_1_n_n.rhsIdx i q 0).val = (q ⟨0, by decide⟩).val :=
  dot_S8192x256_S256x256_S8192x256_1_0_0_1_n_n.rhsIdx_val_of_single rfl i q
theorem dotB_r1 (i : S8192x256.Idx) (q : dot_S8192x256_S256x256_S8192x256_1_0_0_1_n_n.contr.Idx) : (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The host's [8192, 256] × [256, 256] product is the matrix product. -/
theorem dotB_eq (A : FVec Ideal S8192x256 .f32) (B : FVec Ideal S256x256 .f32) :
    Host.dotGeneral (F := Ideal) dot_S8192x256_S256x256_S8192x256_1_0_0_1_n_n none A B = mm A B :=
  dot_eq_mm dot_S8192x256_S256x256_S8192x256_1_0_0_1_n_n rfl rfl dotB_l0 dotB_l1 dotB_r0 dotB_r1 A B

/-! The [8192, 256] × [256, 64] product's operand indices at an output index and a contraction position. -/

theorem dotC_l0 (i : S8192x64.Idx) (q : dot_S8192x256_S256x64_S8192x64_1_0_0_1_n_n.contr.Idx) : (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide), dif_pos (show (0 : Fin S8192x256.rank) ∈ dot_S8192x256_S256x64_S8192x64_1_0_0_1_n_n.lhsNonContracting by decide)]
  rfl
theorem dotC_l1 (i : S8192x64.Idx) (q : dot_S8192x256_S256x64_S8192x64_1_0_0_1_n_n.contr.Idx) : (dot_S8192x256_S256x64_S8192x64_1_0_0_1_n_n.lhsIdx i q 1).val = (q ⟨0, by decide⟩).val :=
  dot_S8192x256_S256x64_S8192x64_1_0_0_1_n_n.lhsIdx_val_of_single rfl i q
theorem dotC_r0 (i : S8192x64.Idx) (q : dot_S8192x256_S256x64_S8192x64_1_0_0_1_n_n.contr.Idx) : (dot_S8192x256_S256x64_S8192x64_1_0_0_1_n_n.rhsIdx i q 0).val = (q ⟨0, by decide⟩).val :=
  dot_S8192x256_S256x64_S8192x64_1_0_0_1_n_n.rhsIdx_val_of_single rfl i q
theorem dotC_r1 (i : S8192x64.Idx) (q : dot_S8192x256_S256x64_S8192x64_1_0_0_1_n_n.contr.Idx) : (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide), dif_pos (show (1 : Fin S256x64.rank) ∈ dot_S8192x256_S256x64_S8192x64_1_0_0_1_n_n.rhsNonContracting by decide)]
  rfl

/-- The host's [8192, 256] × [256, 64] product is the matrix product. -/
theorem dotC_eq (A : FVec Ideal S8192x256 .f32) (B : FVec Ideal S256x64 .f32) :
    Host.dotGeneral (F := Ideal) dot_S8192x256_S256x64_S8192x64_1_0_0_1_n_n none A B = mm A B :=
  dot_eq_mm dot_S8192x256_S256x64_S8192x64_1_0_0_1_n_n rfl rfl dotC_l0 dotC_l1 dotC_r0 dotC_r1 A B

/-- The broadcast zero word at an entry. -/
theorem zero_bcast_apply (i : S8192x256.Idx) :
    broadcastInDim S8192x256 ![] bcast_S_S8192x256 (constant (F := Ideal) S_ .f32 0x00000000#32) i
      = Ideal.ofBits .f32 0x00000000#32 :=
  broadcastInDim_apply _ bcast_S_S8192x256 _ i ix0 (fun a => a.elim0)

/-- The hidden layer is relu ((adj · x) · W1). -/
theorem hidden_eq (adj : Arr 8192 8192) (x : Arr 8192 256) (W1 : Arr 256 256) :
    hidden (F := Ideal) adj x W1 = relu (mm (mm adj x) W1) := by
  unfold hidden
  rw [dotA_eq adj x, dotB_eq (mm adj x) W1]
  funext i
  show max (mm (mm adj x) W1 i) _ = reluE (mm (mm adj x) W1 i)
  rw [zero_bcast_apply]
  rfl

/-- The logits are (adj · hidden) · W2. -/
theorem logits_eq (adj : Arr 8192 8192) (x : Arr 8192 256) (W1 : Arr 256 256) (W2 : Arr 256 64) :
    logits (F := Ideal) adj x W1 W2 = mm (mm adj (relu (mm (mm adj x) W1))) W2 := by
  unfold logits
  rw [hidden_eq adj x W1, dotA_eq adj (relu (mm (mm adj x) W1)), dotC_eq (mm adj (relu (mm (mm adj x) W1))) W2]

/-- The host's spelling of log_softmax is the row-wise log-softmax. -/
theorem hostLogSoftmax_eq (z : Arr 8192 64) : hostLogSoftmax (F := Ideal) z = rowLogSoftmax z := by
  funext i
  obtain ⟨p, q, rfl⟩ : ∃ (p : Fin 8192) (q : Fin 64), i = ix2 p q := ⟨i 0, i 1, eq_ix2 i⟩
  unfold hostLogSoftmax
  exact host_logSoftmax_apply z reducesTo_S8192x64_S8192_d1 (by decide) h_S_ bcast_S_S8192 bcast_S8192_S8192x1_0
    bcast_S8192x1_S8192x64_0_1 p q

/-- The reference's result, as a function of its four arguments, is its specification. -/
theorem refTerm_eq (adj : Arr 8192 8192) (x : Arr 8192 256) (W1 : Arr 256 256) (W2 : Arr 256 64) :
    refTerm (F := Ideal) adj x W1 W2 = refSpec adj x W1 W2 := by
  unfold refTerm refSpec
  rw [logits_eq adj x W1 W2, hostLogSoftmax_eq]

end Cert.RefSide

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.Finite.lean ====
/-
  Finite inputs are real-valued at the extended reals.

  The precondition prints, per input x, as jnp.all(|x| < +inf), the four results joined by `and`; it is stated as
  "the joined bit is 1 on every device". A conjunction of bits is 1 exactly when each is, and one input's bit being 1
  says every entry of that input is neither +∞ nor -∞: a real number.
-/
import proofs.«170206_j10720238371545_2_alg».proof.Defs
import proofs.«170206_j10720238371545_2_alg».proof.Proof.LibFiniteInputs
import proofs.«170206_j10720238371545_2_alg».proof.Proof.LibERealSum

noncomputable section

namespace Cert.RefSide

open Idealize.ShloMosaic Idealize.SL.Sem Cert.LibERealSum

/-- Under the precondition every entry of each of the four inputs is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : (⟨2, ![8192, 8192]⟩ : Shape).Idx, IsReal (m ((c.tc : Thread Cert.KernelIdeal.nD Cert.KernelIdeal.τ).loc Cert.KernelIdeal.main_arg0) i))
    ∧ (∀ i : (⟨2, ![8192, 256]⟩ : Shape).Idx, IsReal (m ((c.tc : Thread Cert.KernelIdeal.nD Cert.KernelIdeal.τ).loc Cert.KernelIdeal.main_arg1) i))
    ∧ (∀ i : (⟨2, ![256, 256]⟩ : Shape).Idx, IsReal (m ((c.tc : Thread Cert.KernelIdeal.nD Cert.KernelIdeal.τ).loc Cert.KernelIdeal.main_arg2) i))
    ∧ (∀ i : (⟨2, ![256, 64]⟩ : Shape).Idx, IsReal (m ((c.tc : Thread Cert.KernelIdeal.nD Cert.KernelIdeal.τ).loc Cert.KernelIdeal.main_arg3) i)) := by
  have h0 := congrFun (h c) ValueIdx.ix0
  have h1 : IntOp.andi (IntOp.andi (IntOp.andi _ _) _) _ = 1#1 := h0
  obtain ⟨h123, e3⟩ := IntOp.andi_eq_one.mp h1
  obtain ⟨h12, e2⟩ := IntOp.andi_eq_one.mp h123
  obtain ⟨e0, e1⟩ := IntOp.andi_eq_one.mp h12
  exact ⟨Cert.LibFiniteInputs.all_real _ _ _ _ e0, Cert.LibFiniteInputs.all_real _ _ _ _ e1,
    Cert.LibFiniteInputs.all_real _ _ _ _ e2, Cert.LibFiniteInputs.all_real _ _ _ _ e3⟩

end Cert.RefSide

end
-- ==== Proof.lean ====
/-
  The certificate of a two-layer graph-convolution kernel against its reference.

  The kernel's program computes, for an adjacency matrix adj [8192, 8192], features x [8192, 256] and weights
  W₁ [256, 256], W₂ [256, 64]:   h = relu(adj · (x · W₁)),   out = logsoftmax_rows(adj · (h · W₂)),
  each product with adj inside a tiled kernel — a 4 × 8 grid of 2048-row tiles and 1024-column blocks, the partial
  products summed in an accumulator carried from column block to column block, the activation applied to the
  accumulator at the last block — and the two small products on the host.  The reference computes
  relu((adj · x) · W₁) and logsoftmax_rows((adj · h) · W₂).

  At the ideal instance a change of float format is the identity and sums of extended reals may be regrouped
  freely, so the tiled kernel's result is the plain product adj · B; the two programs then differ only in how a
  triple product is bracketed, which is the same number when every entry is a real number — what the precondition
  (all inputs finite) provides: relu of a real is a real, so the second layer's operands are real as well.

  Frames: both printed kernels (word level and ideal) run, fault nowhere and leave the four arguments unchanged —
  per region the body's run in its three cases (first / middle / last column block), the accumulator's contents
  named point by point in the region's invariant, the two regions and the two host products chained with the
  buffers' contents named at every boundary; the reference's frame is its run with the result dropped.  The ideal
  pass rewrote no operation — the casts to bf16 on the way into the products are still in the text, and are the
  identity at the ideal instance — so the preservation claim is the trivial one.
-/
import proofs.«170206_j10720238371545_2_alg».proof.Defs
import proofs.«170206_j10720238371545_2_alg».proof.Proof.Gen.Kernel
import proofs.«170206_j10720238371545_2_alg».proof.Proof.Gen.KernelIdeal
import proofs.«170206_j10720238371545_2_alg».proof.Proof.Gen.ReferenceIdeal
import proofs.«170206_j10720238371545_2_alg».proof.Proof.Gen.Pre_finite_inputs
import proofs.«170206_j10720238371545_2_alg».proof.Proof.K.FrameAll
import proofs.«170206_j10720238371545_2_alg».proof.Proof.KI.Bridge
import proofs.«170206_j10720238371545_2_alg».proof.Proof.KI.Value0
import proofs.«170206_j10720238371545_2_alg».proof.Proof.KI.Value1
import proofs.«170206_j10720238371545_2_alg».proof.Proof.SpecAlgebra
import proofs.«170206_j10720238371545_2_alg».proof.Proof.RefRun
import proofs.«170206_j10720238371545_2_alg».proof.Proof.RefValue
import proofs.«170206_j10720238371545_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.RefSide.run (F := Ideal) m ρ)

theorem preserves : Cert.preserves_Kernel_KernelIdeal := trivial

/-- Both programs end at logsoftmax_rows(adj · (relu(adj · (x · W₁)) · W₂)): the kernel's program by the boundaries'
    contents substituted through the two regions' results, the reference's by its run read entry by entry and the
    triple products re-bracketed over the reals. -/
theorem algebraic : Cert.algebraic_KernelIdeal_ReferenceIdeal := by
  intro m ρ m' ρ' hpre hagree
  refine ⟨fun c => Cert.GcnSpec.kernelSpec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Fr.mem_uc Cert.KernelIdeal.main_v3 (by decide))).trans
          (Cert.KernelIdeal.Br.kernel_value_of m ρ Cert.KernelIdeal.Val.final0 Cert.KernelIdeal.Val.final1 c),
        (h c _ (Cert.KernelIdeal.Fr.mem_uc Cert.KernelIdeal.main_arg0 (by decide))).trans (Cert.KernelIdeal.Fr.Wb4_main_arg0 m ρ c),
        (h c _ (Cert.KernelIdeal.Fr.mem_uc Cert.KernelIdeal.main_arg1 (by decide))).trans (Cert.KernelIdeal.Fr.Wb4_main_arg1 m ρ c),
        (h c _ (Cert.KernelIdeal.Fr.mem_uc Cert.KernelIdeal.main_arg2 (by decide))).trans (Cert.KernelIdeal.Fr.Wb4_main_arg2 m ρ c),
        (h c _ (Cert.KernelIdeal.Fr.mem_uc Cert.KernelIdeal.main_arg3 (by decide))).trans (Cert.KernelIdeal.Fr.Wb4_main_arg3 m ρ c)⟩)
      (Cert.KernelIdeal.Fr.run_all m ρ)
  · refine (θ_run Cert.ReferenceIdeal.defs _ _).mono (fun _ h c => ⟨(h c).1.trans ?_, (h c).2⟩)
      (Cert.RefSide.run (F := Ideal) m' ρ')
    obtain ⟨h0, h1, h2, h3⟩ := Cert.RefSide.real_of_pre m hpre c
    rw [(hagree c).1, (hagree c).2.1, (hagree c).2.2.1, (hagree c).2.2.2]
    exact (Cert.RefSide.refTerm_eq _ _ _ _).trans (Cert.GcnSpec.kernelSpec_eq_refSpec _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
